-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x129 : Shape := ⟨3, ![8, 1024, 129]⟩
abbrev S8x1024x1024 : Shape := ⟨3, ![8, 1024, 1024]⟩
abbrev S128x32 : Shape := ⟨2, ![128, 32]⟩
abbrev S32 : Shape := ⟨1, ![32]⟩
abbrev S32x512 : Shape := ⟨2, ![32, 512]⟩
abbrev S512 : Shape := ⟨1, ![512]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S8x1024x129 : S_.BroadcastsInDim S8x1024x129 (![] : Fin 0 → Fin S8x1024x129.rank)
  reducesTo_S8x1024x129_S_d0_1_2 : S8x1024x129.ReducesTo [0, 1, 2] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S32 .f32) (main_arg8 : FVec F S32x2 .f32) (main_arg9 : FVec F S2 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x2 .f32 := Host.absf main_arg8
  let main_cst_14 : FVec F S_ .f32 := constant S_ .f32 0x7F800000#32
  let main_v40 : FVec F S32x2 .f32 := broadcastInDim S32x2 ![] bcast_S_S32x2 main_cst_14
  let main_v41 : IVec S32x2 1 := cmpf .olt main_v39 main_v40
  let main_c_15 : IVec S_ 1 := constantI S_ 1 1#1
  let main_v42 : IVec S_ 1 := (fun x v => Host.reduce IntOp.andi x v reducesTo_S32x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg4 : FVec F S32x512 .f32) (main_arg5 : FVec F S512 .f32) (main_arg6 : FVec F S32x32 .f32) (main_arg7 : FVec F S32 .f32) (main_arg8 : FVec F S32x2 .f32) (main_arg9 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x1024x129 .f32) (main_arg1 : FVec F S8x1024x1024 .f32) (main_arg2 : FVec F S128x32 .f32) (main_arg3 : FVec F S32 .f32) (main_arg4 : FVec F S32x512 .f32) (main_arg5 : FVec F S512 .f32) (main_arg6 : FVec F S32x32 .f32) (main_arg7 : FVec F S32 .f32) (main_arg8 : FVec F S32x2 .f32) (main_arg9 : FVec F S2 .f32) : IVec S_ 1 :=
  let main_v0 : FVec F S8x1024x129 .f32 := Host.absf main_arg0
  let main_cst : FVec F S_ .f32 := constant S_ .f32 0x7F800000#32
  let main_v1 : FVec F S8x1024x129 .f32 := broadcastInDim S8x1024x129 ![] bcast_S_S8x1024x129 main_cst
  let main_v2 : IVec S8x1024x129 1 := cmpf .olt main_v0 main_v1
  let main_c : IVec S_ 1 := constantI S_ 1 1#1
  let main_v3 : IVec S_ 1 := (fun x v => Host.reduce IntOp.andi x v reducesTo_S8x1024x129_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S8x1024x129 : Shape := ⟨3, ![8, 1024, 129]⟩
abbrev S8x1024x1024 : Shape := ⟨3, ![8, 1024, 1024]⟩
abbrev S128x32 : Shape := ⟨2, ![128, 32]⟩
abbrev S32 : Shape := ⟨1, ![32]⟩
abbrev S32x512 : Shape := ⟨2, ![32, 512]⟩
abbrev S512 : Shape := ⟨1, ![512]⟩
abbrev S32x32 : Shape := ⟨2, ![32, 32]⟩
abbrev S32x2 : Shape := ⟨2, ![32, 2]⟩
abbrev S2 : Shape := ⟨1, ![2]⟩
abbrev S8x1024x128 : Shape := ⟨3, ![8, 1024, 128]⟩
abbrev S8x1024x1 : Shape := ⟨3, ![8, 1024, 1]⟩
abbrev S8x1x2 : Shape := ⟨3, ![8, 1, 2]⟩
abbrev S1x1024x128 : Shape := ⟨3, ![1, 1024, 128]⟩
abbrev S1x1024x1 : Shape := ⟨3, ![1, 1024, 1]⟩
abbrev S1x1024x1024 : Shape := ⟨3, ![1, 1024, 1024]⟩
abbrev S1x1x2 : Shape := ⟨3, ![1, 1, 2]⟩
abbrev S1024x128 : Shape := ⟨2, ![1024, 128]⟩
abbrev S1024x1 : Shape := ⟨2, ![1024, 1]⟩
abbrev S1024x1024 : Shape := ⟨2, ![1024, 1024]⟩
abbrev S1024x32 : Shape := ⟨2, ![1024, 32]⟩
abbrev S1x32 : Shape := ⟨2, ![1, 32]⟩
abbrev S1024x512 : Shape := ⟨2, ![1024, 512]⟩
abbrev S1x512 : Shape := ⟨2, ![1, 512]⟩
abbrev S1024 : Shape := ⟨1, ![1024]⟩
abbrev S512x32 : Shape := ⟨2, ![512, 32]⟩
abbrev S512x512 : Shape := ⟨2, ![512, 512]⟩
abbrev S512x1 : Shape := ⟨2, ![512, 1]⟩
abbrev S1x2 : Shape := ⟨2, ![1, 2]⟩
abbrev S8x2 : Shape := ⟨2, ![8, 2]⟩

abbrev nBuf : Space → Nat
  | .hbm => 14
  | .vmem => 16
  | .smem => 0
  | _ => 0

abbrev bufTy : (tb : Table) → Fin (tcTables nBuf tb) → BufTy
  | .hbm, ⟨0, _⟩ => ⟨S8x1024x129, .f32⟩
  | .hbm, ⟨1, _⟩ => ⟨S8x1024x1024, .f32⟩
  | .hbm, ⟨2, _⟩ => ⟨S128x32, .f32⟩
  | .hbm, ⟨3, _⟩ => ⟨S32, .f32⟩
  | .hbm, ⟨4, _⟩ => ⟨S32x512, .f32⟩
  | .hbm, ⟨5, _⟩ => ⟨S512, .f32⟩
  | .hbm, ⟨6, _⟩ => ⟨S32x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S8x1024x128, .f32⟩
  | .hbm, ⟨11, _⟩ => ⟨S8x1024x1, .f32⟩
  | .hbm, ⟨12, _⟩ => ⟨S8x1x2, .f32⟩
  | .hbm, ⟨13, _⟩ => ⟨S8x2, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1, .f32⟩
  | .local _ .vmem, ⟨3, _⟩ => ⟨S1x1024x1, .f32⟩
  | .local _ .vmem, ⟨4, _⟩ => ⟨S1x1024x1024, .f32⟩
  | .local _ .vmem, ⟨5, _⟩ => ⟨S1x1024x1024, .f32⟩
  | .local _ .vmem, ⟨6, _⟩ => ⟨S128x32, .f32⟩
  | .local _ .vmem, ⟨7, _⟩ => ⟨S32, .f32⟩
  | .local _ .vmem, ⟨8, _⟩ => ⟨S32x512, .f32⟩
  | .local _ .vmem, ⟨9, _⟩ => ⟨S512, .f32⟩
  | .local _ .vmem, ⟨10, _⟩ => ⟨S32x32, .f32⟩
  | .local _ .vmem, ⟨11, _⟩ => ⟨S32, .f32⟩
  | .local _ .vmem, ⟨12, _⟩ => ⟨S32x2, .f32⟩
  | .local _ .vmem, ⟨13, _⟩ => ⟨S2, .f32⟩
  | .local _ .vmem, ⟨14, _⟩ => ⟨S1x1x2, .f32⟩
  | .local _ .vmem, ⟨15, _⟩ => ⟨S1x1x2, .f32⟩
  | _, _ => ⟨S8x1024x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S8x1024x129_S8x1024x128_0_0_0 : S8x1024x129.Slices ![0, 0, 0] S8x1024x128
  slices_S8x1024x129_S8x1024x1_0_0_128 : S8x1024x129.Slices ![0, 0, 128] S8x1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  broadcasts_S1024x1_S1024x32 : S1024x1.Broadcasts S1024x32
  inb_S32x512_S32x512_0_0 : ∀ a, (![0, 0] : Fin 2 → Nat) a + S32x512.size a ≤ S32x512.size a
  h_S32x512 : 0 < S32x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  shapeCasts_S512x1_S1x512 : S512x1.ShapeCasts S1x512
  broadcasts_S1x512_S512x512 : S1x512.Broadcasts S512x512
  inb_S32x32_S32x32_0_0 : ∀ a, (![0, 0] : Fin 2 → Nat) a + S32x32.size a ≤ S32x32.size a
  h_S32x32 : 0 < S32x32.numel
  broadcasts_S1x32_S512x32 : S1x32.Broadcasts S512x32
  reduces_S512x32_S32 : S512x32.Reduces [0] S32
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  inb_S1x1x2_S1x1x2_0_0_0 : ∀ a, (![0, 0, 0] : Fin 3 → Nat) a + S1x1x2.size a ≤ S1x1x2.size a
  h_S1x1x2 : 0 < S1x1x2.numel
  shapeCasts_S1x1x2_S1x2 : S1x1x2.ShapeCasts S1x2
  shapeCasts_S1x2_S1x1x2 : S1x2.ShapeCasts S1x1x2
  shapeCasts_S8x1x2_S8x2 : S8x1x2.ShapeCasts S8x2
  dot_S1024x128_S128x32_S1024x32_1_0_0_1_n_n_wf : DotDims.WF S1024x128 S128x32 S1024x32 [1] [0] [0] [1] [] []
  dot_S1024x1024_S1024x32_S1024x32_1_0_0_1_n_n_wf : DotDims.WF S1024x1024 S1024x32 S1024x32 [1] [0] [0] [1] [] []
  dot_S1024x32_S32x512_S1024x512_1_0_0_1_n_n_wf : DotDims.WF S1024x32 S32x512 S1024x512 [1] [0] [0] [1] [] []
  dot_S1024x512_S1024x32_S512x32_0_0_1_1_n_n_wf : DotDims.WF S1024x512 S1024x32 S512x32 [0] [0] [1] [1] [] []
  dot_S1024x1024_S1024x512_S1024x512_1_0_0_1_n_n_wf : DotDims.WF S1024x1024 S1024x512 S1024x512 [1] [0] [0] [1] [] []
  dot_S1024x512_S1024x512_S512x512_0_0_1_1_n_n_wf : DotDims.WF S1024x512 S1024x512 S512x512 [0] [0] [1] [1] [] []
  dot_S512x32_S32x32_S512x32_1_0_0_1_n_n_wf : DotDims.WF S512x32 S32x32 S512x32 [1] [0] [0] [1] [] []
  dot_S512x512_S512x32_S512x32_1_0_0_1_n_n_wf : DotDims.WF S512x512 S512x32 S512x32 [1] [0] [0] [1] [] []
  dot_S1x32_S32x2_S1x2_1_0_0_1_n_n_wf : DotDims.WF S1x32 S32x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x1024x128.size a
  hwx0_0 : ∀ i : grid0.Coords, EltTy.bits .f32 = 32 ∨ (Rect.block (s := S8x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S8x1024x1.size a
  hwx0_1 : ∀ i : grid0.Coords, EltTy.bits .f32 = 32 ∨ (Rect.block (s := S8x1024x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .f32 = 32 ∨ (Rect.block (s := S8x1024x1024) S1x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x512.size a ≤ S32x512.size a
  hwx0_5 : ∀ i : grid0.Coords, EltTy.bits .f32 = 32 ∨ (Rect.block (s := S32x512) S32x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x2.size a ≤ S32x2.size a
  hwx0_9 : ∀ i : grid0.Coords, EltTy.bits .f32 = 32 ∨ (Rect.block (s := S32x2) S32x2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2.size a ≤ S2.size a
  hwx0_10 : ∀ i : grid0.Coords, EltTy.bits .f32 = 32 ∨ (Rect.block (s := S2) S2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x2.size a ≤ S8x1x2.size a
  hwx0_11 : ∀ i : grid0.Coords, EltTy.bits .f32 = 32 ∨ (Rect.block (s := S8x1x2) S1x1x2.size (cc0_transform_11 i) (hinb0_11 i)).WholeWords (EltTy.packing .f32)

variable [Facts₀]

def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S1024x32_S32x512_S1024x512_1_0_0_1_n_n : DotDims S1024x32 S32x512 S1024x512 where
  lhsContracting := [1]
  rhsContracting := [0]
  lhsNonContracting := [0]
  rhsNonContracting := [1]
  lhsBatch := []
  rhsBatch := []
  wf := dot_S1024x32_S32x512_S1024x512_1_0_0_1_n_n_wf
def dot_S1024x512_S1024x32_S512x32_0_0_1_1_n_n : DotDims S1024x512 S1024x32 S512x32 where
  lhsContracting := [0]
  rhsContracting := [0]
  lhsNonContracting := [1]
  rhsNonContracting := [1]
  lhsBatch := []
  rhsBatch := []
  wf := dot_S1024x512_S1024x32_S512x32_0_0_1_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def dot_S1x32_S32x2_S1x2_1_0_0_1_n_n : DotDims S1x32 S32x2 S1x2 where
  lhsContracting := [1]
  rhsContracting := [0]
  lhsNonContracting := [0]
  rhsNonContracting := [1]
  lhsBatch := []
  rhsBatch := []
  wf := dot_S1x32_S32x2_S1x2_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S32x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x1x2.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x1024x129 : Shape := ⟨3, ![8, 1024, 129]⟩
abbrev S8x1024x1024 : Shape := ⟨3, ![8, 1024, 1024]⟩
abbrev S128x32 : Shape := ⟨2, ![128, 32]⟩
abbrev S32 : Shape := ⟨1, ![32]⟩
abbrev S32x512 : Shape := ⟨2, ![32, 512]⟩
abbrev S512 : Shape := ⟨1, ![512]⟩
abbrev S32x32 : Shape := ⟨2, ![32, 32]⟩
abbrev S32x2 : Shape := ⟨2, ![32, 2]⟩
abbrev S2 : Shape := ⟨1, ![2]⟩
abbrev S8x1024x1 : Shape := ⟨3, ![8, 1024, 1]⟩
abbrev S8x1024x128 : Shape := ⟨3, ![8, 1024, 128]⟩
abbrev S8x1024x32 : Shape := ⟨3, ![8, 1024, 32]⟩
abbrev S1x1x32 : Shape := ⟨3, ![1, 1, 32]⟩
abbrev S_ : Shape := ⟨0, ![]⟩
abbrev S8x1024x512 : Shape := ⟨3, ![8, 1024, 512]⟩
abbrev S1x1x512 : Shape := ⟨3, ![1, 1, 512]⟩
abbrev S8x1024 : Shape := ⟨2, ![8, 1024]⟩
abbrev S8x512x32 : Shape := ⟨3, ![8, 512, 32]⟩
abbrev S8x512x512 : Shape := ⟨3, ![8, 512, 512]⟩
abbrev S512x512 : Shape := ⟨2, ![512, 512]⟩
abbrev S1x512x512 : Shape := ⟨3, ![1, 512, 512]⟩
abbrev S8x512 : Shape := ⟨2, ![8, 512]⟩
abbrev S8x512x1 : Shape := ⟨3, ![8, 512, 1]⟩
abbrev S8x1x512 : Shape := ⟨3, ![8, 1, 512]⟩
abbrev S8x32 : Shape := ⟨2, ![8, 32]⟩
abbrev S8x2 : Shape := ⟨2, ![8, 2]⟩
abbrev S1x2 : Shape := ⟨2, ![1, 2]⟩

abbrev nBuf : Space → Nat
  | .hbm => 94
  | .vmem => 0
  | .smem => 0
  | _ => 0

abbrev bufTy : (tb : Table) → Fin (tcTables nBuf tb) → BufTy
  | .hbm, ⟨0, _⟩ => ⟨S8x1024x129, .f32⟩
  | .hbm, ⟨1, _⟩ => ⟨S8x1024x1024, .f32⟩
  | .hbm, ⟨2, _⟩ => ⟨S128x32, .f32⟩
  | .hbm, ⟨3, _⟩ => ⟨S32, .f32⟩
  | .hbm, ⟨4, _⟩ => ⟨S32x512, .f32⟩
  | .hbm, ⟨5, _⟩ => ⟨S512, .f32⟩
  | .hbm, ⟨6, _⟩ => ⟨S32x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S8x1024x1, .f32⟩
  | .hbm, ⟨11, _⟩ => ⟨S8x1024x128, .f32⟩
  | .hbm, ⟨12, _⟩ => ⟨S8x1024x32, .f32⟩
  | .hbm, ⟨13, _⟩ => ⟨S8x1024x32, .f32⟩
  | .hbm, ⟨14, _⟩ => ⟨S1x1x32, .f32⟩
  | .hbm, ⟨15, _⟩ => ⟨S8x1024x32, .f32⟩
  | .hbm, ⟨16, _⟩ => ⟨S8x1024x32, .f32⟩
  | .hbm, ⟨17, _⟩ => ⟨S_, .f32⟩
  | .hbm, ⟨18, _⟩ => ⟨S8x1024x32, .f32⟩
  | .hbm, ⟨19, _⟩ => ⟨S8x1024x32, .f32⟩
  | .hbm, ⟨20, _⟩ => ⟨S8x1024x32, .f32⟩
  | .hbm, ⟨21, _⟩ => ⟨S8x1024x32, .f32⟩
  | .hbm, ⟨22, _⟩ => ⟨S8x1024x512, .f32⟩
  | .hbm, ⟨23, _⟩ => ⟨S1x1x512, .f32⟩
  | .hbm, ⟨24, _⟩ => ⟨S8x1024x512, .f32⟩
  | .hbm, ⟨25, _⟩ => ⟨S8x1024x512, .f32⟩
  | .hbm, ⟨26, _⟩ => ⟨S_, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024x1, .f32⟩
  | .hbm, ⟨32, _⟩ => ⟨S8x1024x512, .f32⟩
  | .hbm, ⟨33, _⟩ => ⟨S8x1024x512, .f32⟩
  | .hbm, ⟨34, _⟩ => ⟨S8x1024x512, .f32⟩
  | .hbm, ⟨35, _⟩ => ⟨S_, .f32⟩
  | .hbm, ⟨36, _⟩ => ⟨S8x1024, .f32⟩
  | .hbm, ⟨37, _⟩ => ⟨S8x1024x1, .f32⟩
  | .hbm, ⟨38, _⟩ => ⟨S8x1024x512, .f32⟩
  | .hbm, ⟨39, _⟩ => ⟨S8x1024x512, .f32⟩
  | .hbm, ⟨40, _⟩ => ⟨S8x1024x512, .f32⟩
  | .hbm, ⟨41, _⟩ => ⟨S8x1024x512, .f32⟩
  | .hbm, ⟨42, _⟩ => ⟨S8x512x32, .f32⟩
  | .hbm, ⟨43, _⟩ => ⟨S8x1024x512, .f32⟩
  | .hbm, ⟨44, _⟩ => ⟨S8x512x512, .f32⟩
  | .hbm, ⟨45, _⟩ => ⟨S512x512, .i32⟩
  | .hbm, ⟨46, _⟩ => ⟨S512x512, .i32⟩
  | .hbm, ⟨47, _⟩ => ⟨S_, .i32⟩
  | .hbm, ⟨48, _⟩ => ⟨S512x512, .i32⟩
  | .hbm, ⟨49, _⟩ => ⟨S512x512, .i32⟩
  | .hbm, ⟨50, _⟩ => ⟨S512x512, .i1⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S1x512x512, .f32⟩
  | .hbm, ⟨56, _⟩ => ⟨S8x512x512, .f32⟩
  | .hbm, ⟨57, _⟩ => ⟨S8x512x512, .f32⟩
  | .hbm, ⟨58, _⟩ => ⟨S_, .f32⟩
  | .hbm, ⟨59, _⟩ => ⟨S8x512, .f32⟩
  | .hbm, ⟨60, _⟩ => ⟨S_, .f32⟩
  | .hbm, ⟨61, _⟩ => ⟨S8x512, .f32⟩
  | .hbm, ⟨62, _⟩ => ⟨S8x512, .i1⟩
  | .hbm, ⟨63, _⟩ => ⟨S_, .f32⟩
  | .hbm, ⟨64, _⟩ => ⟨S8x512, .f32⟩
  | .hbm, ⟨65, _⟩ => ⟨S8x512, .f32⟩
  | .hbm, ⟨66, _⟩ => ⟨S8x512, .f32⟩
  | .hbm, ⟨67, _⟩ => ⟨S_, .f32⟩
  | .hbm, ⟨68, _⟩ => ⟨S8x512, .f32⟩
  | .hbm, ⟨69, _⟩ => ⟨S8x512, .f32⟩
  | .hbm, ⟨70, _⟩ => ⟨S_, .f32⟩
  | .hbm, ⟨71, _⟩ => ⟨S_, .f32⟩
  | .hbm, ⟨72, _⟩ => ⟨S8x512, .f32⟩
  | .hbm, ⟨73, _⟩ => ⟨S8x512, .f32⟩
  | .hbm, ⟨74, _⟩ => ⟨S8x512x1, .f32⟩
  | .hbm, ⟨75, _⟩ => ⟨S8x512x512, .f32⟩
  | .hbm, ⟨76, _⟩ => ⟨S8x512x512, .f32⟩
  | .hbm, ⟨77, _⟩ => ⟨S8x1x512, .f32⟩
  | .hbm, ⟨78, _⟩ => ⟨S8x512x512, .f32⟩
  | .hbm, ⟨79, _⟩ => ⟨S8x512x512, .f32⟩
  | .hbm, ⟨80, _⟩ => ⟨S8x512x32, .f32⟩
  | .hbm, ⟨81, _⟩ => ⟨S8x512x32, .f32⟩
  | .hbm, ⟨82, _⟩ => ⟨S1x1x32, .f32⟩
  | .hbm, ⟨83, _⟩ => ⟨S8x512x32, .f32⟩
  | .hbm, ⟨84, _⟩ => ⟨S8x512x32, .f32⟩
  | .hbm, ⟨85, _⟩ => ⟨S_, .f32⟩
  | .hbm, ⟨86, _⟩ => ⟨S8x512x32, .f32⟩
  | .hbm, ⟨87, _⟩ => ⟨S8x512x32, .f32⟩
  | .hbm, ⟨88, _⟩ => ⟨S_, .f32⟩
  | .hbm, ⟨89, _⟩ => ⟨S8x32, .f32⟩
  | .hbm, ⟨90, _⟩ => ⟨S8x2, .f32⟩
  | .hbm, ⟨91, _⟩ => ⟨S1x2, .f32⟩
  | .hbm, ⟨92, _⟩ => ⟨S8x2, .f32⟩
  | .hbm, ⟨93, _⟩ => ⟨S8x2, .f32⟩
  | _, _ => ⟨S8x1024x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_call1_v0 : Ref sig .tc := ⟨.hbm, 71, rfl⟩
abbrev main_call1_v1 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call2_cst : Ref sig .tc := ⟨.hbm, 85, rfl⟩
abbrev main_call2_v0 : Ref sig .tc := ⟨.hbm, 86, rfl⟩
abbrev main_v61 : Ref sig .tc := ⟨.hbm, 87, rfl⟩
abbrev main_cst_8 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]

class Facts₀ : Prop where
  slices_S8x1024x129_S8x1024x1_0_0_128 : S8x1024x129.Slices ![0, 0, 128] S8x1024x1
  slices_S8x1024x129_S8x1024x128_0_0_0 : S8x1024x129.Slices ![0, 0, 0] S8x1024x128
  bcast_S32_S1x1x32_2 : S32.BroadcastsInDim S1x1x32 (![2] : Fin 1 → Fin S1x1x32.rank)
  bcast_S1x1x32_S8x1024x32_0_1_2 : S1x1x32.BroadcastsInDim S8x1024x32 (![0, 1, 2] : Fin 3 → Fin S8x1024x32.rank)
  bcast_S_S8x1024x32 : S_.BroadcastsInDim S8x1024x32 (![] : Fin 0 → Fin S8x1024x32.rank)
  bcast_S8x1024x1_S8x1024x32_0_1_2 : S8x1024x1.BroadcastsInDim S8x1024x32 (![0, 1, 2] : Fin 3 → Fin S8x1024x32.rank)
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  reducesTo_S8x1024x512_S8x1024_d2 : S8x1024x512.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x512_0_1_2 : S8x1024x1.BroadcastsInDim S8x1024x512 (![0, 1, 2] : Fin 3 → Fin S8x1024x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S8x512x512_0_1_2 : S1x512x512.BroadcastsInDim S8x512x512 (![0, 1, 2] : Fin 3 → Fin S8x512x512.rank)
  reducesTo_S8x512x512_S8x512_d2 : S8x512x512.ReducesTo [2] S8x512
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x512_0_1_2 : S8x512x1.BroadcastsInDim S8x512x512 (![0, 1, 2] : Fin 3 → Fin S8x512x512.rank)
  bcast_S8x512_S8x1x512_0_2 : S8x512.BroadcastsInDim S8x1x512 (![0, 2] : Fin 2 → Fin S8x1x512.rank)
  bcast_S8x1x512_S8x512x512_0_1_2 : S8x1x512.BroadcastsInDim S8x512x512 (![0, 1, 2] : Fin 3 → Fin S8x512x512.rank)
  bcast_S1x1x32_S8x512x32_0_1_2 : S1x1x32.BroadcastsInDim S8x512x32 (![0, 1, 2] : Fin 3 → Fin S8x512x32.rank)
  bcast_S_S8x512x32 : S_.BroadcastsInDim S8x512x32 (![] : Fin 0 → Fin S8x512x32.rank)
  reducesTo_S8x512x32_S8x32_d1 : S8x512x32.ReducesTo [1] S8x32
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  dot_S8x1024x128_S128x32_S8x1024x32_2_0_01_1_n_n_wf : DotDims.WF S8x1024x128 S128x32 S8x1024x32 [2] [0] [0, 1] [1] [] []
  dot_S8x1024x1024_S8x1024x32_S8x1024x32_2_1_1_2_0_0_wf : DotDims.WF S8x1024x1024 S8x1024x32 S8x1024x32 [2] [1] [1] [2] [0] [0]
  dot_S8x1024x32_S32x512_S8x1024x512_2_0_01_1_n_n_wf : DotDims.WF S8x1024x32 S32x512 S8x1024x512 [2] [0] [0, 1] [1] [] []
  dot_S8x1024x512_S8x1024x32_S8x512x32_1_1_2_2_0_0_wf : DotDims.WF S8x1024x512 S8x1024x32 S8x512x32 [1] [1] [2] [2] [0] [0]
  dot_S8x1024x1024_S8x1024x512_S8x1024x512_2_1_1_2_0_0_wf : DotDims.WF S8x1024x1024 S8x1024x512 S8x1024x512 [2] [1] [1] [2] [0] [0]
  dot_S8x1024x512_S8x1024x512_S8x512x512_1_1_2_2_0_0_wf : DotDims.WF S8x1024x512 S8x1024x512 S8x512x512 [1] [1] [2] [2] [0] [0]
  dot_S8x512x32_S32x32_S8x512x32_2_0_01_1_n_n_wf : DotDims.WF S8x512x32 S32x32 S8x512x32 [2] [0] [0, 1] [1] [] []
  dot_S8x512x512_S8x512x32_S8x512x32_2_1_1_2_0_0_wf : DotDims.WF S8x512x512 S8x512x32 S8x512x32 [2] [1] [1] [2] [0] [0]
  dot_S8x32_S32x2_S8x2_1_0_0_1_n_n_wf : DotDims.WF S8x32 S32x2 S8x2 [1] [0] [0] [1] [] []

variable [Facts₀]

def dot_S8x1024x128_S128x32_S8x1024x32_2_0_01_1_n_n : DotDims S8x1024x128 S128x32 S8x1024x32 where
  lhsContracting := [2]
  rhsContracting := [0]
  lhsNonContracting := [0, 1]
  rhsNonContracting := [1]
  lhsBatch := []
  rhsBatch := []
  wf := dot_S8x1024x128_S128x32_S8x1024x32_2_0_01_1_n_n_wf
def dot_S8x1024x1024_S8x1024x32_S8x1024x32_2_1_1_2_0_0 : DotDims S8x1024x1024 S8x1024x32 S8x1024x32 where
  lhsContracting := [2]
  rhsContracting := [1]
  lhsNonContracting := [1]
  rhsNonContracting := [2]
  lhsBatch := [0]
  rhsBatch := [0]
  wf := dot_S8x1024x1024_S8x1024x32_S8x1024x32_2_1_1_2_0_0_wf
def dot_S8x1024x32_S32x512_S8x1024x512_2_0_01_1_n_n : DotDims S8x1024x32 S32x512 S8x1024x512 where
  lhsContracting := [2]
  rhsContracting := [0]
  lhsNonContracting := [0, 1]
  rhsNonContracting := [1]
  lhsBatch := []
  rhsBatch := []
  wf := dot_S8x1024x32_S32x512_S8x1024x512_2_0_01_1_n_n_wf
def dot_S8x1024x512_S8x1024x32_S8x512x32_1_1_2_2_0_0 : DotDims S8x1024x512 S8x1024x32 S8x512x32 where
  lhsContracting := [1]
  rhsContracting := [1]
  lhsNonContracting := [2]
  rhsNonContracting := [2]
  lhsBatch := [0]
  rhsBatch := [0]
  wf := dot_S8x1024x512_S8x1024x32_S8x512x32_1_1_2_2_0_0_wf
def dot_S8x1024x1024_S8x1024x512_S8x1024x512_2_1_1_2_0_0 : DotDims S8x1024x1024 S8x1024x512 S8x1024x512 where
  lhsContracting := [2]
  rhsContracting := [1]
  lhsNonContracting := [1]
  rhsNonContracting := [2]
  lhsBatch := [0]
  rhsBatch := [0]
  wf := dot_S8x1024x1024_S8x1024x512_S8x1024x512_2_1_1_2_0_0_wf
def dot_S8x1024x512_S8x1024x512_S8x512x512_1_1_2_2_0_0 : DotDims S8x1024x512 S8x1024x512 S8x512x512 where
  lhsContracting := [1]
  rhsContracting := [1]
  lhsNonContracting := [2]
  rhsNonContracting := [2]
  lhsBatch := [0]
  rhsBatch := [0]
  wf := dot_S8x1024x512_S8x1024x512_S8x512x512_1_1_2_2_0_0_wf
def dot_S8x512x32_S32x32_S8x512x32_2_0_01_1_n_n : DotDims S8x512x32 S32x32 S8x512x32 where
  lhsContracting := [2]
  rhsContracting := [0]
  lhsNonContracting := [0, 1]
  rhsNonContracting := [1]
  lhsBatch := []
  rhsBatch := []
  wf := dot_S8x512x32_S32x32_S8x512x32_2_0_01_1_n_n_wf
def dot_S8x512x512_S8x512x32_S8x512x32_2_1_1_2_0_0 : DotDims S8x512x512 S8x512x32 S8x512x32 where
  lhsContracting := [2]
  rhsContracting := [1]
  lhsNonContracting := [1]
  rhsNonContracting := [2]
  lhsBatch := [0]
  rhsBatch := [0]
  wf := dot_S8x512x512_S8x512x32_S8x512x32_2_1_1_2_0_0_wf
def dot_S8x32_S32x2_S8x2_1_0_0_1_n_n : DotDims S8x32 S32x2 S8x2 where
  lhsContracting := [1]
  rhsContracting := [0]
  lhsNonContracting := [0]
  rhsNonContracting := [1]
  lhsBatch := []
  rhsBatch := []
  wf := dot_S8x32_S32x2_S8x2_1_0_0_1_n_n_wf

class Facts : Prop extends Facts₀ where

variable [Facts]
-- ==== Proof.BodyParts.lean ====
/-
  The second half of the kernel body — everything after the cluster assignment — cut into four named pieces, each the
  body's own operations on the values it receives:
  * `pooledFeat`  — the product `sᵀ · h` (one matrix product contracting the node axis of both factors);
  * `pooledAdj`   — `sᵀ · (a · s)` (two matrix products);
  * `normalized`  — the diagonal set to zero, the row sums, their inverse square roots where positive, and the two
                     scalings by them (along rows and along columns);
  * `readoutPart` — the second convolution, the sum over the clusters and the last dense layer.
  `pay7_eq`: the body's second payload is these four composed, by unfolding alone.
-/
import proofs.«127208_g75806172774760_cont_9to1_m_1287_4_alg».proof.Proof.Gen.KernelIdeal.Skeleton

noncomputable section

namespace Cert.KernelIdeal.BodyParts

open Idealize.ShloMosaic Cert.KernelIdeal Cert.KernelIdeal.Gen

variable {F : FTy → Type} [FloatOps F]

/-- `sᵀ · h`, into the accumulator `acc`. -/
def pooledFeat (v35 : FVec F S1024x512 .f32) (v18 : FVec F S1024x32 .f32) (acc : FVec F S512x32 .f32) : FVec F S512x32 .f32 :=
  matmul dot_S1024x512_S1024x32_S512x32_0_0_1_1_n_n none v35 v18 acc

/-- `sᵀ · (a · s)`. -/
def pooledAdj (v6 : FVec F S1024x1024 .bf16) (v36 : FVec F S1024x512 .bf16) : FVec F S512x512 .f32 :=
  have cst_20 : FVec F S1024x512 .f32 := constant S1024x512 .f32 0x00000000#32
  have v38 : FVec F S1024x512 .f32 := matmul dot_S1024x1024_S1024x512_S1024x512_1_0_0_1_n_n none v6 v36 cst_20
  have v39 : FVec F S1024x512 .bf16 := truncf .bf16 v38 bitsLt_bf16_f32
  have cst_21 : FVec F S512x512 .f32 := constant S512x512 .f32 0x00000000#32
  have v40 : FVec F S512x512 .f32 := matmul dot_S1024x512_S1024x512_S512x512_0_0_1_1_n_n none v36 v39 cst_21
  v40

/-- Zero diagonal, then the symmetric scaling by the inverse square roots of the row sums. -/
def normalized (v40 : FVec F S512x512 .f32) : FVec F S512x512 .f32 :=
  have v41 : IVec S512x512 32 := iota .tc S512x512 32 [0] iota_S512x512_d0_w32
  have v42 : IVec S512x512 32 := iota .tc S512x512 32 [1] iota_S512x512_d1_w32
  have v43 : IVec S512x512 1 := cmpi .eq v41 v42
  have cst_22 : F .f32 := Scalar.ofBits .f32 0x00000000#32
  have v44 : FVec F S512x512 .f32 := broadcast S512x512 cst_22
  have v45 : FVec F S512x512 .f32 := select v43 v44 v40
  have v46 : FVec F S512 .f32 := multiReduction .add [1] S512 v45 0x00000000#32 reduces_S512x512_S512 (.inl rfl) rfl
  have v47 : FVec F S512x1 .f32 := shapeCast S512x1 v46 shapeCasts_S512_S512x1
  have cst_24 : F .f32 := Scalar.ofBits .f32 0x00000000#32
  have v48 : FVec F S512x1 .f32 := broadcast S512x1 cst_24
  have v49 : IVec S512x1 1 := cmpf .ogt v47 v48
  have cst_25 : F .f32 := Scalar.ofBits .f32 0x2B8CBCCC#32
  have v50 : FVec F S512x1 .f32 := broadcast S512x1 cst_25
  have v51 : FVec F S512x1 .f32 := maximumf v47 v50
  have v52 : FVec F S512x1 .f32 := sqrt v51
  have cst_26 : F .f32 := Scalar.ofBits .f32 0x3F800000#32
  have v53 : FVec F S512x1 .f32 := broadcast S512x1 cst_26
  have v54 : FVec F S512x1 .f32 := divf v53 v52
  have cst_27 : F .f32 := Scalar.ofBits .f32 0x00000000#32
  have v55 : FVec F S512x1 .f32 := broadcast S512x1 cst_27
  have v56 : FVec F S512x1 .f32 := select v49 v54 v55
  have v57 : FVec F S512x512 .f32 := broadcastTo S512x512 v56 broadcasts_S512x1_S512x512
  have v58 : FVec F S512x512 .f32 := mulf v45 v57
  have v59 : FVec F S1x512 .f32 := shapeCast S1x512 v56 shapeCasts_S512x1_S1x512
  have v60 : FVec F S512x512 .f32 := broadcastTo S512x512 v59 broadcasts_S1x512_S512x512
  have v61 : FVec F S512x512 .f32 := mulf v58 v60
  v61

/-- The second convolution, the sum over clusters and the last dense layer. -/
def readoutPart (v37 : FVec F S512x32 .f32) (v61 : FVec F S512x512 .f32) (v62 : Vec F S32x32 .f32) (v65 : Vec F S32 .f32)
    (v73 : Vec F S32x2 .f32) (v75 : Vec F S2 .f32) : FVec F S1x2 .f32 :=
  have cst_30 : FVec F S512x32 .f32 := constant S512x32 .f32 0x00000000#32
  have v63 : FVec F S512x32 .f32 := matmul dot_S512x32_S32x32_S512x32_1_0_0_1_n_n none v37 v62 cst_30
  have cst_31 : FVec F S512x32 .f32 := constant S512x32 .f32 0x00000000#32
  have v64 : FVec F S512x32 .f32 := matmul dot_S512x512_S512x32_S512x32_1_0_0_1_n_n none v61 v63 cst_31
  have v66 : FVec F S1x32 .f32 := shapeCast S1x32 v65 shapeCasts_S32_S1x32
  have v67 : FVec F S512x32 .f32 := broadcastTo S512x32 v66 broadcasts_S1x32_S512x32
  have v68 : FVec F S512x32 .f32 := addf v64 v67
  have cst_33 : F .f32 := Scalar.ofBits .f32 0x00000000#32
  have v69 : FVec F S512x32 .f32 := broadcast S512x32 cst_33
  have v70 : FVec F S512x32 .f32 := maximumf v68 v69
  have v71 : FVec F S32 .f32 := multiReduction .add [0] S32 v70 0x00000000#32 reduces_S512x32_S32 (.inl rfl) rfl
  have v72 : FVec F S1x32 .f32 := shapeCast S1x32 v71 shapeCasts_S32_S1x32
  have cst_37 : FVec F S1x2 .f32 := constant S1x2 .f32 0x00000000#32
  have v74 : FVec F S1x2 .f32 := matmul dot_S1x32_S32x2_S1x2_1_0_0_1_n_n none v72 v73 cst_37
  have v76 : FVec F S1x2 .f32 := shapeCast S1x2 v75 shapeCasts_S2_S1x2
  have v77 : FVec F S1x2 .f32 := addf v74 v76
  v77

/-- The body's second payload is the four pieces composed. -/
theorem pay7_eq (v6 : FVec F S1024x1024 .bf16) (v18 : FVec F S1024x32 .f32) (v35 : FVec F S1024x512 .f32)
    (v36 : FVec F S1024x512 .bf16) (cst_19 : FVec F S512x32 .f32) (v62 : Vec F S32x32 .f32) (v65 : Vec F S32 .f32)
    (v73 : Vec F S32x2 .f32) (v75 : Vec F S2 .f32) :
    k0_pay7 v6 v18 v35 v36 cst_19 v62 v65 v73 v75
      = readoutPart (pooledFeat v35 v18 cst_19) (normalized (pooledAdj v6 v36)) v62 v65 v73 v75 := rfl

end Cert.KernelIdeal.BodyParts

end
-- ==== Proof.PoolNet.lean ====
/-
  The network both programs compute, for ONE graph, as functions on the extended reals.

  A graph has 1024 nodes with 128 features each, a node mask `mk` (one number per node) and a 1024 × 1024
  adjacency `a`. The steps:
  * `conv`     — a graph convolution to 32 channels: `max (a · (xf · W1) + b1) 0`, each row scaled by its mask;
  * `logits`, `rowMax`, `assign` — a dense layer to 512 clusters and its row softmax (each row shifted by its
                  maximum, exponentiated, divided by the row's sum), each row again scaled by the mask;
  * `poolFeat` — the pooled features `sᵀ · h` (512 × 32);
  * `poolAdj`  — the pooled adjacency `sᵀ · (a · s)` (512 × 512), `offDiag` its diagonal set to zero;
  * `degree`, `invSqrt`, `normAdj` — the row sums `d`, `1/√(max d tiny)` where `d > 0` and `0` elsewhere, and
                  the symmetric scaling `p k l · r k · r l`;
  * `conv2`    — the second convolution on the pooled graph, `max (q · (xp · W2) + b2) 0`;
  * `readout`  — the column sums over the 512 clusters followed by a dense layer to 2 outputs.
  `tail` is everything after the assignment, `net` the whole.

  Every sum is a plain finite sum over a literal `Fin` type and every product is written in the order both programs
  multiply in, so no law of the extended reals beyond reassociating a finite sum is ever needed to meet this
  specification. The three float literals that occur (−∞, 1.0 and the small constant under the square root) are
  kept as their bit patterns.
-/
import Idealize.ShloMosaic.PureOps.Ideal
import Idealize.ShloMosaic.Lib.ValueIdx

noncomputable section

namespace Cert.PoolNet

open Idealize.ShloMosaic Idealize.ShloMosaic.ValueIdx

/-- Graph convolution with a rectifier, rows scaled by the node mask. -/
def conv (xf : Fin 1024 → Fin 128 → EReal) (a : Fin 1024 → Fin 1024 → EReal) (mk : Fin 1024 → EReal)
    (W1 : Fin 128 → Fin 32 → EReal) (b1 : Fin 32 → EReal) (n : Fin 1024) (c : Fin 32) : EReal :=
  max ((∑ m : Fin 1024, a n m * ∑ f : Fin 128, xf m f * W1 f c) + b1 c) 0 * mk n

/-- The dense layer in front of the softmax. -/
def logits (h : Fin 1024 → Fin 32 → EReal) (Ws : Fin 32 → Fin 512 → EReal) (bs : Fin 512 → EReal)
    (n : Fin 1024) (k : Fin 512) : EReal :=
  (∑ c : Fin 32, h n c * Ws c k) + bs k

/-- A row's maximum, folded from −∞. -/
def rowMax (z : Fin 1024 → Fin 512 → EReal) (n : Fin 1024) : EReal :=
  (Finset.univ : Finset (Fin 512)).fold max (Ideal.ofBits .f32 0xFF800000#32) (fun k => z n k)

/-- The masked row softmax: the cluster assignment. -/
def assign (z : Fin 1024 → Fin 512 → EReal) (mk : Fin 1024 → EReal) (n : Fin 1024) (k : Fin 512) : EReal :=
  Ideal.div (Ideal.exp (z n k - rowMax z n)) (∑ k' : Fin 512, Ideal.exp (z n k' - rowMax z n)) * mk n

/-- Pooled features `sᵀ · h`. -/
def poolFeat (s : Fin 1024 → Fin 512 → EReal) (h : Fin 1024 → Fin 32 → EReal) (k : Fin 512) (c : Fin 32) : EReal :=
  ∑ n : Fin 1024, s n k * h n c

/-- Pooled adjacency `sᵀ · (a · s)`. -/
def poolAdj (a : Fin 1024 → Fin 1024 → EReal) (s : Fin 1024 → Fin 512 → EReal) (k l : Fin 512) : EReal :=
  ∑ n : Fin 1024, s n k * ∑ m : Fin 1024, a n m * s m l

/-- The diagonal set to zero. -/
def offDiag (p : Fin 512 → Fin 512 → EReal) (k l : Fin 512) : EReal :=
  if k = l then 0 else p k l

/-- Row sums. -/
def degree (p : Fin 512 → Fin 512 → EReal) (k : Fin 512) : EReal :=
  ∑ l : Fin 512, p k l

/-- `1/√(max d tiny)` where `d > 0`, and `0` elsewhere. -/
def invSqrt (d : EReal) : EReal :=
  Scalar.select (Ideal.cmp .ogt d 0)
    (Ideal.div (Ideal.ofBits .f32 0x3F800000#32) (Ideal.sqrt (max d (Ideal.ofBits .f32 0x2B8CBCCC#32)))) 0

/-- The symmetric degree scaling. -/
def normAdj (p : Fin 512 → Fin 512 → EReal) (k l : Fin 512) : EReal :=
  p k l * invSqrt (degree p k) * invSqrt (degree p l)

/-- The convolution on the pooled graph. -/
def conv2 (q : Fin 512 → Fin 512 → EReal) (xp : Fin 512 → Fin 32 → EReal) (W2 : Fin 32 → Fin 32 → EReal)
    (b2 : Fin 32 → EReal) (k : Fin 512) (d : Fin 32) : EReal :=
  max ((∑ l : Fin 512, q k l * ∑ c : Fin 32, xp l c * W2 c d) + b2 d) 0

/-- Sum over the clusters, then the dense layer to the two outputs. -/
def readout (g : Fin 512 → Fin 32 → EReal) (Wd : Fin 32 → Fin 2 → EReal) (bd : Fin 2 → EReal) (j : Fin 2) : EReal :=
  (∑ c : Fin 32, (∑ k : Fin 512, g k c) * Wd c j) + bd j

/-- Everything after the assignment: pooling, normalisation, the second convolution and the read-out. -/
def tail (a : Fin 1024 → Fin 1024 → EReal) (h : Fin 1024 → Fin 32 → EReal) (s : Fin 1024 → Fin 512 → EReal)
    (W2 : Fin 32 → Fin 32 → EReal) (b2 : Fin 32 → EReal) (Wd : Fin 32 → Fin 2 → EReal) (bd : Fin 2 → EReal)
    (j : Fin 2) : EReal :=
  readout (conv2 (normAdj (offDiag (poolAdj a s))) (poolFeat s h) W2 b2) Wd bd j

/-- The whole network on one graph. -/
def net (xf : Fin 1024 → Fin 128 → EReal) (mk : Fin 1024 → EReal) (a : Fin 1024 → Fin 1024 → EReal)
    (W1 : Fin 128 → Fin 32 → EReal) (b1 : Fin 32 → EReal) (Ws : Fin 32 → Fin 512 → EReal) (bs : Fin 512 → EReal)
    (W2 : Fin 32 → Fin 32 → EReal) (b2 : Fin 32 → EReal) (Wd : Fin 32 → Fin 2 → EReal) (bd : Fin 2 → EReal)
    (j : Fin 2) : EReal :=
  tail a (conv xf a mk W1 b1) (assign (logits (conv xf a mk W1 b1) Ws bs) mk) W2 b2 Wd bd j

/-! ## Reading the argument arrays

The programs receive the eight graphs stacked: node data `x` of shape [8, 1024, 129] (128 features, then the mask in the
last column), adjacencies `a` of shape [8, 1024, 1024], and the weights as plain matrices and vectors. -/

/-- Graph `b`'s features: the first 128 columns. -/
def feats (x : (⟨3, ![8, 1024, 129]⟩ : Shape).Idx → EReal) (b : Fin 8) (n : Fin 1024) (f : Fin 128) : EReal :=
  x (ix3 b n (⟨f.val, Nat.lt_succ_of_lt f.isLt⟩ : Fin 129))

/-- Graph `b`'s node mask: the last column. -/
def mask (x : (⟨3, ![8, 1024, 129]⟩ : Shape).Idx → EReal) (b : Fin 8) (n : Fin 1024) : EReal :=
  x (ix3 b n (⟨128, by decide⟩ : Fin 129))

/-- Graph `b`'s adjacency. -/
def adj (a : (⟨3, ![8, 1024, 1024]⟩ : Shape).Idx → EReal) (b : Fin 8) (n m : Fin 1024) : EReal :=
  a (ix3 b n m)

/-- A rank-2 array as a function of its two coordinates. -/
def mat {r c : Nat} (w : (⟨2, ![r, c]⟩ : Shape).Idx → EReal) (i : Fin r) (j : Fin c) : EReal := w (ix2 i j)

/-- A rank-1 array as a function of its coordinate. -/
def vec {n : Nat} (v : (⟨1, ![n]⟩ : Shape).Idx → EReal) (i : Fin n) : EReal := v (ix1 i)

/-- Output `j` of graph `b`, from the argument arrays. -/
def netOf (x : (⟨3, ![8, 1024, 129]⟩ : Shape).Idx → EReal) (a : (⟨3, ![8, 1024, 1024]⟩ : Shape).Idx → EReal)
    (W1 : (⟨2, ![128, 32]⟩ : Shape).Idx → EReal) (b1 : (⟨1, ![32]⟩ : Shape).Idx → EReal)
    (Ws : (⟨2, ![32, 512]⟩ : Shape).Idx → EReal) (bs : (⟨1, ![512]⟩ : Shape).Idx → EReal)
    (W2 : (⟨2, ![32, 32]⟩ : Shape).Idx → EReal) (b2 : (⟨1, ![32]⟩ : Shape).Idx → EReal)
    (Wd : (⟨2, ![32, 2]⟩ : Shape).Idx → EReal) (bd : (⟨1, ![2]⟩ : Shape).Idx → EReal) (b : Fin 8) (j : Fin 2) : EReal :=
  net (feats x b) (mask x b) (adj a b) (mat W1) (vec b1) (mat Ws) (vec bs) (mat W2) (vec b2) (mat Wd) (vec bd) j

/-- The [8, 2] array of all outputs: entry (b, j) is output `j` of graph `b`. -/
def outputs (x : (⟨3, ![8, 1024, 129]⟩ : Shape).Idx → EReal) (a : (⟨3, ![8, 1024, 1024]⟩ : Shape).Idx → EReal)
    (W1 : (⟨2, ![128, 32]⟩ : Shape).Idx → EReal) (b1 : (⟨1, ![32]⟩ : Shape).Idx → EReal)
    (Ws : (⟨2, ![32, 512]⟩ : Shape).Idx → EReal) (bs : (⟨1, ![512]⟩ : Shape).Idx → EReal)
    (W2 : (⟨2, ![32, 32]⟩ : Shape).Idx → EReal) (b2 : (⟨1, ![32]⟩ : Shape).Idx → EReal)
    (Wd : (⟨2, ![32, 2]⟩ : Shape).Idx → EReal) (bd : (⟨1, ![2]⟩ : Shape).Idx → EReal) :
    (⟨2, ![8, 2]⟩ : Shape).Idx → EReal := fun i =>
  netOf x a W1 b1 Ws bs W2 b2 Wd bd ⟨(i 0).val, (i 0).isLt⟩ ⟨(i 1).val, (i 1).isLt⟩

theorem outputs_apply (x : (⟨3, ![8, 1024, 129]⟩ : Shape).Idx → EReal) (a : (⟨3, ![8, 1024, 1024]⟩ : Shape).Idx → EReal)
    (W1 : (⟨2, ![128, 32]⟩ : Shape).Idx → EReal) (b1 : (⟨1, ![32]⟩ : Shape).Idx → EReal)
    (Ws : (⟨2, ![32, 512]⟩ : Shape).Idx → EReal) (bs : (⟨1, ![512]⟩ : Shape).Idx → EReal)
    (W2 : (⟨2, ![32, 32]⟩ : Shape).Idx → EReal) (b2 : (⟨1, ![32]⟩ : Shape).Idx → EReal)
    (Wd : (⟨2, ![32, 2]⟩ : Shape).Idx → EReal) (bd : (⟨1, ![2]⟩ : Shape).Idx → EReal) (b : Fin 8) (j : Fin 2) :
    outputs x a W1 b1 Ws bs W2 b2 Wd bd (ix2 b j) = netOf x a W1 b1 Ws bs W2 b2 Wd bd b j := rfl

end Cert.PoolNet

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.BodyConv.lean ====
/-
The first convolution of the kernel body read at an entry.
-/
import proofs.«127208_g75806172774760_cont_9to1_m_1287_4_alg».proof.Proof.BodyParts
import proofs.«127208_g75806172774760_cont_9to1_m_1287_4_alg».proof.Proof.PoolNet
import proofs.«127208_g75806172774760_cont_9to1_m_1287_4_alg».proof.Proof.LibPlainDot
import proofs.«127208_g75806172774760_cont_9to1_m_1287_4_alg».proof.Proof.LibVectorReads
import proofs.«127208_g75806172774760_cont_9to1_m_1287_4_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen Cert.KernelIdeal.BodyParts

/-- The adjacency block with its leading unit axis dropped (the change of float format is the identity). -/
theorem pay3_apply (v4 : Vec Ideal S1x1024x1024 .f32) (n m : Fin 1024) :
    k0_pay3 (F := Ideal) v4 (ix2 n m) = v4 (ix3 (0 : Fin 1) n m) := by
  unfold k0_pay3
  rw [truncf_apply]
  exact shapeCast_1ab_ab_apply v4 _ n m

/-- The mask block with its leading unit axis dropped. -/
theorem pay2_apply (v2 : Vec Ideal S1x1024x1 .f32) (n : Fin 1024) :
    k0_pay2 (F := Ideal) v2 (ix2 n (0 : Fin 1)) = v2 (ix3 (0 : Fin 1) n (0 : Fin 1)) := by
  unfold k0_pay2
  exact shapeCast_1ab_ab_apply v2 _ n (0 : Fin 1)

/-- The product of the feature block (leading unit axis dropped) with the first weights, at (m, c): the sum over the
    128 features. -/
theorem xw_apply (v0 : FVec Ideal S1x1024x128 .f32) (v7 : FVec Ideal S128x32 .f32)
    (hc : S1x1024x128.ShapeCasts S1024x128) (m : Fin 1024) (c : Fin 32) :
    matmul (F := Ideal) dot_S1024x128_S128x32_S1024x32_1_0_0_1_n_n none (shapeCast S1024x128 v0 hc : FVec Ideal S1024x128 .f32) v7
        (constant S1024x32 .f32 0x00000000#32) (ix2 m c)
      = ∑ f : Fin 128, v0 (ix3 (0 : Fin 1) m f) * v7 (ix2 f c) :=
  (Cert.LibPlainDot.matmul_zero_plain dot_S1024x128_S128x32_S1024x32_1_0_0_1_n_n rfl rfl
    (fun _ _ => rfl) (fun _ _ => rfl) (fun _ _ => rfl) (fun _ _ => rfl) none (shapeCast S1024x128 v0 hc : FVec Ideal S1024x128 .f32) v7 m c).trans
    (Finset.sum_congr rfl fun f _ => congrArg (fun t => t * v7 (ix2 f c)) (shapeCast_1ab_ab_apply v0 hc m f))

/-- The adjacency times that product, at (n, c): the sum over the 1024 nodes (the changes of float format are the
    identity). -/
theorem axw_apply (v0 : FVec Ideal S1x1024x128 .f32) (v4 : FVec Ideal S1x1024x1024 .f32) (v7 : FVec Ideal S128x32 .f32)
    (hc : S1x1024x128.ShapeCasts S1024x128) (hb : FTy.bits .bf16 < FTy.bits .f32) (n : Fin 1024) (c : Fin 32) :
    matmul (F := Ideal) dot_S1024x1024_S1024x32_S1024x32_1_0_0_1_n_n none (k0_pay3 (F := Ideal) v4)
        (truncf .bf16 (matmul (F := Ideal) dot_S1024x128_S128x32_S1024x32_1_0_0_1_n_n none (shapeCast S1024x128 v0 hc : FVec Ideal S1024x128 .f32) v7
          (constant S1024x32 .f32 0x00000000#32)) hb)
        (constant S1024x32 .f32 0x00000000#32) (ix2 n c)
      = ∑ m : Fin 1024, v4 (ix3 (0 : Fin 1) n m) * ∑ f : Fin 128, v0 (ix3 (0 : Fin 1) m f) * v7 (ix2 f c) :=
  (Cert.LibPlainDot.matmul_zero_plain dot_S1024x1024_S1024x32_S1024x32_1_0_0_1_n_n rfl rfl
    (fun _ _ => rfl) (fun _ _ => rfl) (fun _ _ => rfl) (fun _ _ => rfl) none _ _ n c).trans
    (Finset.sum_congr rfl fun m _ => by
      rw [pay3_apply v4 n m, truncf_apply, xw_apply v0 v7 hc m c])

/-- The first payload at (n, c) is the masked, rectified graph convolution. -/
theorem pay4_apply (v0 : Vec Ideal S1x1024x128 .f32) (v2 : Vec Ideal S1x1024x1 .f32) (v4 : Vec Ideal S1x1024x1024 .f32)
    (v7 : Vec Ideal S128x32 .f32) (v11 : Vec Ideal S32 .f32) (n : Fin 1024) (c : Fin 32) :
    k0_pay4 (F := Ideal) v0 v2 v4 v7 v11 (ix2 n c)
      = PoolNet.conv (fun n f => v0 (ix3 (0 : Fin 1) n f)) (fun n m => v4 (ix3 (0 : Fin 1) n m))
          (fun n => v2 (ix3 (0 : Fin 1) n (0 : Fin 1))) (PoolNet.mat v7) (PoolNet.vec v11) n c := by
  unfold k0_pay4 PoolNet.conv
  dsimp only
  rw [mulf_apply, maximumf_apply, addf_apply, broadcast_apply, axw_apply v0 v4 v7 _ _ n c,
    Cert.LibVectorReads.bias_rows_apply v11 _ _ n c, Cert.LibLayout.broadcastTo_a1_ab_apply _ _ n c, pay2_apply v2 n]
  exact congrArg (fun z => max ((∑ m : Fin 1024, v4 (ix3 (0 : Fin 1) n m)
    * ∑ f : Fin 128, v0 (ix3 (0 : Fin 1) m f) * v7 (ix2 f c)) + v11 (ix1 c)) z * v2 (ix3 (0 : Fin 1) n (0 : Fin 1)))
    Ideal.ofBits_zero_f32

end Cert.KernelIdeal.BodyValue

end
-- ==== Proof.BodyAssign.lean ====
/-
The cluster assignment (dense layer and masked row softmax) of the kernel body read at an entry.
-/
import proofs.«127208_g75806172774760_cont_9to1_m_1287_4_alg».proof.Proof.BodyParts
import proofs.«127208_g75806172774760_cont_9to1_m_1287_4_alg».proof.Proof.PoolNet
import proofs.«127208_g75806172774760_cont_9to1_m_1287_4_alg».proof.Proof.LibPlainDot
import proofs.«127208_g75806172774760_cont_9to1_m_1287_4_alg».proof.Proof.LibVectorReads
import proofs.«127208_g75806172774760_cont_9to1_m_1287_4_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen Cert.KernelIdeal.BodyParts

/-- The mask column is the mask block with its leading unit axis dropped. -/
theorem assign_mask_apply (v2 : Vec Ideal S1x1024x1 .f32) (n : Fin 1024) :
    k0_pay2 (F := Ideal) v2 (ix2 n (0 : Fin 1)) = v2 (ix3 (0 : Fin 1) n (0 : Fin 1)) := by
  unfold k0_pay2
  exact shapeCast_1ab_ab_apply v2 _ n (0 : Fin 1)

/-- A vector of one value per row, cast to a column and spread over the 512 columns, reads the row's value. -/
theorem assign_column_apply (x : FVec Ideal S1024 .f32) (n : Fin 1024) (k : Fin 512) :
    broadcastTo S1024x512 (shapeCast S1024x1 x shapeCasts_S1024_S1024x1) broadcasts_S1024x1_S1024x512 (ix2 n k)
      = x (ix1 n) :=
  (LibLayout.broadcastTo_a1_ab_apply _ _ n k).trans (LibLayout.shapeCast_a_a1_apply x _ n (0 : Fin 1))

/-- The maximum over the columns, from the pattern of −∞, at row `n`: the row's maximum. -/
theorem assign_rowMax_apply (z : FVec Ideal S1024x512 .f32) (hφ : FKind.Formats .f32)
    (hacc : (0xFF800000#32 : BitVec 32) = FKind.maximumf.neutral .f32 hφ) (n : Fin 1024) :
    multiReduction (F := Ideal) .maximumf [(1 : Fin 2)] S1024 z 0xFF800000#32 reduces_S1024x512_S1024 hφ hacc (ix1 n)
      = PoolNet.rowMax (fun n k => z (ix2 n k)) n := by
  refine (Ideal.multiReduction_maximumf_single z _ reduces_S1024x512_S1024 hφ hacc (ix1 n)).trans ?_
  have e : (z ∘ reduces_S1024x512_S1024.lift (ix1 n)) = fun k : Fin 512 => z (ix2 n k) :=
    funext fun k => congrArg z (funext fun c => Fin.ext (by
      match c with
      | ⟨0, _⟩ => rfl
      | ⟨1, _⟩ => rfl))
  unfold PoolNet.rowMax
  exact congrArg (fun f => (Finset.univ : Finset (Fin 512)).fold max (Ideal.ofBits .f32 0xFF800000#32) f) e

/-- A row shifted by a per-row value and exponentiated, at an entry. -/
theorem assign_shiftExp_apply (z : FVec Ideal S1024x512 .f32) (M : FVec Ideal S1024 .f32) (n : Fin 1024) (k : Fin 512) :
    exp (subf z (broadcastTo S1024x512 (shapeCast S1024x1 M shapeCasts_S1024_S1024x1) broadcasts_S1024x1_S1024x512)) (ix2 n k)
      = Ideal.exp (z (ix2 n k) - M (ix1 n)) := by
  show Ideal.exp (z (ix2 n k)
    - broadcastTo S1024x512 (shapeCast S1024x1 M shapeCasts_S1024_S1024x1) broadcasts_S1024x1_S1024x512 (ix2 n k)) = _
  rw [assign_column_apply]

/-- The shifted, exponentiated, row-normalised and masked array at an entry, over any per-row shift `M`. -/
theorem assign_softmax_core (z : FVec Ideal S1024x512 .f32) (M : FVec Ideal S1024 .f32) (m : FVec Ideal S1024x1 .f32)
    (hφ : FKind.Formats .f32) (hadd : (0x00000000#32 : BitVec 32) = FKind.add.neutral .f32 hφ)
    (n : Fin 1024) (k : Fin 512) :
    mulf
        (divf
          (exp (subf z (broadcastTo S1024x512 (shapeCast S1024x1 M shapeCasts_S1024_S1024x1) broadcasts_S1024x1_S1024x512)))
          (broadcastTo S1024x512
            (shapeCast S1024x1
              (multiReduction (F := Ideal) .add [(1 : Fin 2)] S1024
                (exp (subf z (broadcastTo S1024x512 (shapeCast S1024x1 M shapeCasts_S1024_S1024x1) broadcasts_S1024x1_S1024x512)))
                0x00000000#32 reduces_S1024x512_S1024 hφ hadd)
              shapeCasts_S1024_S1024x1)
            broadcasts_S1024x1_S1024x512))
        (broadcastTo S1024x512 m broadcasts_S1024x1_S1024x512) (ix2 n k)
      = Ideal.div (Ideal.exp (z (ix2 n k) - M (ix1 n))) (∑ k' : Fin 512, Ideal.exp (z (ix2 n k') - M (ix1 n)))
          * m (ix2 n (0 : Fin 1)) := by
  rw [mulf_apply, divf_apply, assign_shiftExp_apply, assign_column_apply, LibLayout.broadcastTo_a1_ab_apply]
  refine congrArg (fun s => Ideal.div (Ideal.exp (z (ix2 n k) - M (ix1 n))) s * m (ix2 n (0 : Fin 1))) ?_
  refine (LibVectorReads.sum_last2_apply _ reduces_S1024x512_S1024 hφ hadd n).trans ?_
  exact Finset.sum_congr rfl fun k' _ => assign_shiftExp_apply z M n k'

/-- The masked row softmax of the kernel body at an entry, over any array of logits and any mask column. -/
theorem assign_softmax_apply (z : FVec Ideal S1024x512 .f32) (m : FVec Ideal S1024x1 .f32)
    (hφ : FKind.Formats .f32) (hmax : (0xFF800000#32 : BitVec 32) = FKind.maximumf.neutral .f32 hφ)
    (hadd : (0x00000000#32 : BitVec 32) = FKind.add.neutral .f32 hφ) (n : Fin 1024) (k : Fin 512) :
    mulf
        (divf
          (exp (subf z (broadcastTo S1024x512 (shapeCast S1024x1
            (multiReduction (F := Ideal) .maximumf [(1 : Fin 2)] S1024 z 0xFF800000#32 reduces_S1024x512_S1024 hφ hmax)
            shapeCasts_S1024_S1024x1) broadcasts_S1024x1_S1024x512)))
          (broadcastTo S1024x512
            (shapeCast S1024x1
              (multiReduction (F := Ideal) .add [(1 : Fin 2)] S1024
                (exp (subf z (broadcastTo S1024x512 (shapeCast S1024x1
                  (multiReduction (F := Ideal) .maximumf [(1 : Fin 2)] S1024 z 0xFF800000#32 reduces_S1024x512_S1024 hφ hmax)
                  shapeCasts_S1024_S1024x1) broadcasts_S1024x1_S1024x512)))
                0x00000000#32 reduces_S1024x512_S1024 hφ hadd)
              shapeCasts_S1024_S1024x1)
            broadcasts_S1024x1_S1024x512))
        (broadcastTo S1024x512 m broadcasts_S1024x1_S1024x512) (ix2 n k)
      = PoolNet.assign (fun n k => z (ix2 n k)) (fun n => m (ix2 n (0 : Fin 1))) n k := by
  refine (assign_softmax_core z _ m hφ hadd n k).trans ?_
  rw [assign_rowMax_apply z hφ hmax n]
  rfl

/-- The dense layer in front of the softmax at an entry: one plain product into the zero array, plus the bias row. -/
theorem assign_logits_apply (h : FVec Ideal S1024x32 .f32) (v19 : Vec Ideal S32x512 .f32) (v21 : Vec Ideal S512 .f32)
    (n : Fin 1024) (k : Fin 512) :
    addf
        (matmul (φ₂ := .f32) dot_S1024x32_S32x512_S1024x512_1_0_0_1_n_n none h v19 (constant (F := Ideal) S1024x512 .f32 0x00000000#32))
        (broadcastTo S1024x512 (shapeCast S1x512 v21 shapeCasts_S512_S1x512) broadcasts_S1x512_S1024x512) (ix2 n k)
      = PoolNet.logits (fun n c => h (ix2 n c)) (PoolNet.mat v19) (PoolNet.vec v21) n k := by
  rw [addf_apply, LibVectorReads.bias_rows_apply]
  refine congrArg (· + v21 (ix1 k)) ?_
  exact LibPlainDot.matmul_zero_plain dot_S1024x32_S32x512_S1024x512_1_0_0_1_n_n rfl rfl
    (fun _ _ => rfl) (fun _ _ => rfl) (fun _ _ => rfl) (fun _ _ => rfl) none h v19 n k

/-- The assignment payload at (n, k), over the first payload kept as it is. -/
theorem pay5_apply (v0 : Vec Ideal S1x1024x128 .f32) (v2 : Vec Ideal S1x1024x1 .f32) (v4 : Vec Ideal S1x1024x1024 .f32)
    (v7 : Vec Ideal S128x32 .f32) (v11 : Vec Ideal S32 .f32) (v19 : Vec Ideal S32x512 .f32) (v21 : Vec Ideal S512 .f32)
    (n : Fin 1024) (k : Fin 512) :
    k0_pay5 (F := Ideal) v0 v2 v4 v7 v11 v19 v21 (ix2 n k)
      = PoolNet.assign (PoolNet.logits (fun n c => k0_pay4 (F := Ideal) v0 v2 v4 v7 v11 (ix2 n c)) (PoolNet.mat v19) (PoolNet.vec v21))
          (fun n => v2 (ix3 (0 : Fin 1) n (0 : Fin 1))) n k := by
  unfold k0_pay5
  generalize k0_pay4 (F := Ideal) v0 v2 v4 v7 v11 = h
  dsimp only
  refine (assign_softmax_apply _ _ _ _ _ n k).trans ?_
  exact congrArg₂ (fun z mk => PoolNet.assign z mk n k)
    (funext fun n => funext fun k => assign_logits_apply h v19 v21 n k)
    (funext fun n => assign_mask_apply v2 n)

end Cert.KernelIdeal.BodyValue

end
-- ==== Proof.BodyPool.lean ====
/-
The two pooling products of the kernel body read at an entry.
-/
import proofs.«127208_g75806172774760_cont_9to1_m_1287_4_alg».proof.Proof.BodyParts
import proofs.«127208_g75806172774760_cont_9to1_m_1287_4_alg».proof.Proof.PoolNet
import proofs.«127208_g75806172774760_cont_9to1_m_1287_4_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen Cert.KernelIdeal.BodyParts

/-- A `K × R` by `K × C` product contracting the FIRST axis of both factors, accumulated into the zero matrix,
    read at `(p, c)` in exact arithmetic: `∑ a, l (a, p) * r (a, c)`. The hypotheses `hl0 … hr1` say the dimension
    numbers are these: both factors take their first coordinate from the contraction index, the left factor its
    second coordinate from the output's first, the right factor its second from the output's second. -/
theorem matmul_zero_axis0 {R K C : Nat} {φ₁ φ₂ : FTy}
    (D : DotDims ⟨2, ![K, R]⟩ ⟨2, ![K, C]⟩ ⟨2, ![R, C]⟩) (hr : D.contr.rank = 1)
    (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (prec : Option ContractPrecision) (l : FVec Ideal ⟨2, ![K, R]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 a p) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 k p := funext fun a => Fin.ext (by
    match a with
    | ⟨0, _⟩ => exact (hl0 _ _).trans hk
    | ⟨1, _⟩ => exact hl1 _ _)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

/-! ### The coordinate facts of the three dimension-number records -/

theorem feat_l0 (i : S512x32.Idx) (q : dot_S1024x512_S1024x32_S512x32_0_0_1_1_n_n.contr.Idx) :
    (dot_S1024x512_S1024x32_S512x32_0_0_1_1_n_n.lhsIdx i q 0).val = (q ⟨0, by decide⟩).val :=
  dot_S1024x512_S1024x32_S512x32_0_0_1_1_n_n.lhsIdx_val_of_single rfl i q
theorem feat_l1 (i : S512x32.Idx) (q : dot_S1024x512_S1024x32_S512x32_0_0_1_1_n_n.contr.Idx) :
    (dot_S1024x512_S1024x32_S512x32_0_0_1_1_n_n.lhsIdx i q 1).val = (i 0).val := by
  unfold DotDims.lhsIdx
  rw [dif_neg (show ¬(1 : Fin S1024x512.rank) ∈ dot_S1024x512_S1024x32_S512x32_0_0_1_1_n_n.lhsBatch by decide), dif_pos (show (1 : Fin S1024x512.rank) ∈ dot_S1024x512_S1024x32_S512x32_0_0_1_1_n_n.lhsNonContracting by decide)]
  rfl
theorem feat_r0 (i : S512x32.Idx) (q : dot_S1024x512_S1024x32_S512x32_0_0_1_1_n_n.contr.Idx) :
    (dot_S1024x512_S1024x32_S512x32_0_0_1_1_n_n.rhsIdx i q 0).val = (q ⟨0, by decide⟩).val :=
  dot_S1024x512_S1024x32_S512x32_0_0_1_1_n_n.rhsIdx_val_of_single rfl i q
theorem feat_r1 (i : S512x32.Idx) (q : dot_S1024x512_S1024x32_S512x32_0_0_1_1_n_n.contr.Idx) :
    (dot_S1024x512_S1024x32_S512x32_0_0_1_1_n_n.rhsIdx i q 1).val = (i 1).val := by
  unfold DotDims.rhsIdx
  rw [dif_neg (show ¬(1 : Fin S1024x32.rank) ∈ dot_S1024x512_S1024x32_S512x32_0_0_1_1_n_n.rhsBatch by decide), dif_pos (show (1 : Fin S1024x32.rank) ∈ dot_S1024x512_S1024x32_S512x32_0_0_1_1_n_n.rhsNonContracting by decide)]
  rfl

theorem as_l0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem as_l1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem as_r0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem as_r1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

theorem adj_l0 (i : S512x512.Idx) (q : dot_S1024x512_S1024x512_S512x512_0_0_1_1_n_n.contr.Idx) :
    (dot_S1024x512_S1024x512_S512x512_0_0_1_1_n_n.lhsIdx i q 0).val = (q ⟨0, by decide⟩).val :=
  dot_S1024x512_S1024x512_S512x512_0_0_1_1_n_n.lhsIdx_val_of_single rfl i q
theorem adj_l1 (i : S512x512.Idx) (q : dot_S1024x512_S1024x512_S512x512_0_0_1_1_n_n.contr.Idx) :
    (dot_S1024x512_S1024x512_S512x512_0_0_1_1_n_n.lhsIdx i q 1).val = (i 0).val := by
  unfold DotDims.lhsIdx
  rw [dif_neg (show ¬(1 : Fin S1024x512.rank) ∈ dot_S1024x512_S1024x512_S512x512_0_0_1_1_n_n.lhsBatch by decide), dif_pos (show (1 : Fin S1024x512.rank) ∈ dot_S1024x512_S1024x512_S512x512_0_0_1_1_n_n.lhsNonContracting by decide)]
  rfl
theorem adj_r0 (i : S512x512.Idx) (q : dot_S1024x512_S1024x512_S512x512_0_0_1_1_n_n.contr.Idx) :
    (dot_S1024x512_S1024x512_S512x512_0_0_1_1_n_n.rhsIdx i q 0).val = (q ⟨0, by decide⟩).val :=
  dot_S1024x512_S1024x512_S512x512_0_0_1_1_n_n.rhsIdx_val_of_single rfl i q
theorem adj_r1 (i : S512x512.Idx) (q : dot_S1024x512_S1024x512_S512x512_0_0_1_1_n_n.contr.Idx) :
    (dot_S1024x512_S1024x512_S512x512_0_0_1_1_n_n.rhsIdx i q 1).val = (i 1).val := by
  unfold DotDims.rhsIdx
  rw [dif_neg (show ¬(1 : Fin S1024x512.rank) ∈ dot_S1024x512_S1024x512_S512x512_0_0_1_1_n_n.rhsBatch by decide), dif_pos (show (1 : Fin S1024x512.rank) ∈ dot_S1024x512_S1024x512_S512x512_0_0_1_1_n_n.rhsNonContracting by decide)]
  rfl

/-! ### The three products over variable factors -/

/-- The product `sᵀ · h` into zero at `(k, c)`, for any factors. -/
theorem feat_dot_apply {φ₁ φ₂ : FTy} (l : FVec Ideal S1024x512 φ₁) (r : FVec Ideal S1024x32 φ₂) (k : Fin 512) (c : Fin 32) :
    FloatOps.matmul dot_S1024x512_S1024x32_S512x32_0_0_1_1_n_n none l r (constant S512x32 .f32 0x00000000#32) (ix2 k c)
      = ∑ n : Fin 1024, l (ix2 n k) * r (ix2 n c) :=
  matmul_zero_axis0 dot_S1024x512_S1024x32_S512x32_0_0_1_1_n_n rfl rfl feat_l0 feat_l1 feat_r0 feat_r1 none l r k c

/-- The plain product `a · s` into zero at `(n, l)`, for any factors. -/
theorem as_dot_apply {φ₁ φ₂ : FTy} (a : FVec Ideal S1024x1024 φ₁) (s : FVec Ideal S1024x512 φ₂) (n : Fin 1024) (l : Fin 512) :
    FloatOps.matmul dot_S1024x1024_S1024x512_S1024x512_1_0_0_1_n_n none a s (constant S1024x512 .f32 0x00000000#32) (ix2 n l)
      = ∑ m : Fin 1024, a (ix2 n m) * s (ix2 m l) :=
  Cert.LibPlainDot.matmul_zero_plain dot_S1024x1024_S1024x512_S1024x512_1_0_0_1_n_n rfl rfl as_l0 as_l1 as_r0 as_r1 none a s n l

/-- The product `sᵀ · t` into zero at `(k, l)`, for any factors. -/
theorem adj_dot_apply {φ₁ φ₂ : FTy} (s : FVec Ideal S1024x512 φ₁) (t : FVec Ideal S1024x512 φ₂) (k l : Fin 512) :
    FloatOps.matmul dot_S1024x512_S1024x512_S512x512_0_0_1_1_n_n none s t (constant S512x512 .f32 0x00000000#32) (ix2 k l)
      = ∑ n : Fin 1024, s (ix2 n k) * t (ix2 n l) :=
  matmul_zero_axis0 dot_S1024x512_S1024x512_S512x512_0_0_1_1_n_n rfl rfl adj_l0 adj_l1 adj_r0 adj_r1 none s t k l

/-- `sᵀ · h` into zero at (k, c). -/
theorem pooledFeat_apply (v35 : FVec Ideal S1024x512 .f32) (v18 : FVec Ideal S1024x32 .f32) (k : Fin 512) (c : Fin 32) :
    pooledFeat (F := Ideal) v35 v18 (constant S512x32 .f32 0x00000000#32) (ix2 k c)
      = PoolNet.poolFeat (fun n k => v35 (ix2 n k)) (fun n c => v18 (ix2 n c)) k c := by
  unfold pooledFeat PoolNet.poolFeat
  exact feat_dot_apply v35 v18 k c

/-- `sᵀ · (a · s)` at (k, l). -/
theorem pooledAdj_apply (v6 : FVec Ideal S1024x1024 .bf16) (v36 : FVec Ideal S1024x512 .bf16) (k l : Fin 512) :
    pooledAdj (F := Ideal) v6 v36 (ix2 k l)
      = PoolNet.poolAdj (fun n m => v6 (ix2 n m)) (fun n k => v36 (ix2 n k)) k l := by
  unfold pooledAdj PoolNet.poolAdj
  dsimp only
  refine (adj_dot_apply v36 _ k l).trans ?_
  refine Finset.sum_congr rfl fun n _ => ?_
  refine congrArg (fun t => v36 (ix2 n k) * t) ?_
  refine (truncf_apply (φ := .f32) (ψ := .bf16) _ bitsLt_bf16_f32 (ix2 n l)).trans ?_
  exact as_dot_apply v6 v36 n l

end Cert.KernelIdeal.BodyValue

end
-- ==== Proof.BodyNorm.lean ====
/-
The zeroed diagonal and the symmetric degree scaling of the kernel body read at an entry.
-/
import proofs.«127208_g75806172774760_cont_9to1_m_1287_4_alg».proof.Proof.BodyParts
import proofs.«127208_g75806172774760_cont_9to1_m_1287_4_alg».proof.Proof.PoolNet
import proofs.«127208_g75806172774760_cont_9to1_m_1287_4_alg».proof.Proof.LibVectorReads
import proofs.«127208_g75806172774760_cont_9to1_m_1287_4_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen Cert.KernelIdeal.BodyParts

/-- A select on "the words of two numbers below 512 are equal" is the `if` on the numbers being equal: below 2 ^ 32 a
    number is determined by its 32-bit word. -/
theorem norm_select_diag {α : Type} (k l : Fin 512) (A B : α) :
    Scalar.select (IntOp.cmpi .eq (BitVec.ofNat 32 k.val) (BitVec.ofNat 32 l.val)) A B = if k = l then A else B := by
  by_cases h : k = l
  · subst h
    rw [if_pos rfl]
    have e : IntOp.cmpi .eq (BitVec.ofNat 32 k.val) (BitVec.ofNat 32 k.val) = 1#1 := by
      simp [IntOp.cmpi]
    rw [e, select_one]
  · rw [if_neg h]
    have hne : BitVec.ofNat 32 k.val ≠ BitVec.ofNat 32 l.val := by
      intro e
      apply h
      apply Fin.ext
      have e' := congrArg BitVec.toNat e
      simp only [BitVec.toNat_ofNat] at e'
      have hk := k.isLt
      have hl := l.isLt
      rw [Nat.mod_eq_of_lt (by omega), Nat.mod_eq_of_lt (by omega)] at e'
      exact e'
    have e : IntOp.cmpi .eq (BitVec.ofNat 32 k.val) (BitVec.ofNat 32 l.val) = 0#1 := by
      show BitVec.ofBool (BitVec.ofNat 32 k.val == BitVec.ofNat 32 l.val) = 0#1
      rw [beq_eq_false_iff_ne.mpr hne]
      rfl
    rw [e, select_zero]

/-- The matrix with its diagonal set to zero, at (k, l): the row number and the column number of an entry agree
    exactly on the diagonal. -/
theorem norm_masked_apply (v40 : FVec Ideal S512x512 .f32) (k l : Fin 512) :
    select (cmpi .eq (iota .tc S512x512 32 [0] iota_S512x512_d0_w32) (iota .tc S512x512 32 [1] iota_S512x512_d1_w32))
        (broadcast S512x512 (Scalar.ofBits (F := Ideal) .f32 0x00000000#32)) v40 (ix2 k l)
      = PoolNet.offDiag (fun k l => v40 (ix2 k l)) k l := by
  show Scalar.select (IntOp.cmpi .eq (iota .tc S512x512 32 [0] iota_S512x512_d0_w32 (ix2 k l))
        (iota .tc S512x512 32 [1] iota_S512x512_d1_w32 (ix2 k l)))
      (Ideal.ofBits .f32 0x00000000#32) (v40 (ix2 k l)) = _
  rw [iota_single_apply, iota_single_apply, Ideal.ofBits_zero_f32]
  exact norm_select_diag k l 0 (v40 (ix2 k l))

/-- The row sums, cast to a column, at row k. -/
theorem norm_rowSum_apply (w : FVec Ideal S512x512 .f32) (k : Fin 512) (z : Fin 1) :
    shapeCast S512x1 (multiReduction (F := Ideal) .add [1] S512 w 0x00000000#32 reduces_S512x512_S512 (.inl rfl) rfl)
        shapeCasts_S512_S512x1 (ix2 k z)
      = ∑ j : Fin 512, w (ix2 k j) := by
  refine (Cert.LibLayout.shapeCast_a_a1_apply _ _ k z).trans ?_
  exact Cert.LibVectorReads.sum_last2_apply w reduces_S512x512_S512 (.inl rfl) rfl k

/-- The inverse square root where positive and zero elsewhere, entry by entry. -/
theorem norm_invSqrt_apply (c : FVec Ideal S512x1 .f32) (i : S512x1.Idx) :
    select (cmpf .ogt c (broadcast S512x1 (Scalar.ofBits (F := Ideal) .f32 0x00000000#32)))
        (divf (broadcast S512x1 (Scalar.ofBits (F := Ideal) .f32 0x3F800000#32))
          (sqrt (maximumf c (broadcast S512x1 (Scalar.ofBits (F := Ideal) .f32 0x2B8CBCCC#32)))))
        (broadcast S512x1 (Scalar.ofBits (F := Ideal) .f32 0x00000000#32)) i
      = PoolNet.invSqrt (c i) := by
  show Scalar.select (Ideal.cmp .ogt (c i) (Ideal.ofBits .f32 0x00000000#32))
      (Ideal.div (Ideal.ofBits .f32 0x3F800000#32) (Ideal.sqrt (max (c i) (Ideal.ofBits .f32 0x2B8CBCCC#32))))
      (Ideal.ofBits .f32 0x00000000#32) = _
  rw [Ideal.ofBits_zero_f32]
  rfl

/-- A column `[a, 1]` cast to the row `[1, a]` reads, at `(u, i)`, the column at row `i`. -/
theorem norm_cast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- The two scalings by a column c: along the rows, then (the column laid out as a row) along the columns. -/
theorem norm_scale_apply (w : FVec Ideal S512x512 .f32) (c : FVec Ideal S512x1 .f32) (k l : Fin 512) :
    mulf (mulf w (broadcastTo S512x512 c broadcasts_S512x1_S512x512))
        (broadcastTo S512x512 (shapeCast S1x512 c shapeCasts_S512x1_S1x512) broadcasts_S1x512_S512x512) (ix2 k l)
      = w (ix2 k l) * c (ix2 k (0 : Fin 1)) * c (ix2 l (0 : Fin 1)) := by
  rw [mulf_apply, mulf_apply, Cert.LibLayout.broadcastTo_a1_ab_apply, broadcastTo_1b_ab_apply, norm_cast_a1_1a_apply]

/-- The row sums of the matrix with its diagonal set to zero. -/
theorem norm_masked_rowSum (v40 : FVec Ideal S512x512 .f32) (k : Fin 512) :
    (∑ j : Fin 512,
        select (cmpi .eq (iota .tc S512x512 32 [0] iota_S512x512_d0_w32) (iota .tc S512x512 32 [1] iota_S512x512_d1_w32))
          (broadcast S512x512 (Scalar.ofBits (F := Ideal) .f32 0x00000000#32)) v40 (ix2 k j))
      = PoolNet.degree (PoolNet.offDiag (fun k l => v40 (ix2 k l))) k :=
  Finset.sum_congr rfl fun j _ => norm_masked_apply v40 k j

/-- The normalised pooled adjacency at (k, l). -/
theorem normalized_apply (v40 : FVec Ideal S512x512 .f32) (k l : Fin 512) :
    normalized (F := Ideal) v40 (ix2 k l)
      = PoolNet.normAdj (PoolNet.offDiag (fun k l => v40 (ix2 k l))) k l := by
  unfold normalized
  dsimp only
  refine (norm_scale_apply _ _ k l).trans ?_
  rw [norm_invSqrt_apply, norm_invSqrt_apply, norm_rowSum_apply, norm_rowSum_apply, norm_masked_apply, norm_masked_rowSum, norm_masked_rowSum]
  rfl

end Cert.KernelIdeal.BodyValue

end
-- ==== Proof.BodyReadout.lean ====
/-
The second convolution, the sum over clusters and the last dense layer of the kernel body read at an entry.
-/
import proofs.«127208_g75806172774760_cont_9to1_m_1287_4_alg».proof.Proof.BodyParts
import proofs.«127208_g75806172774760_cont_9to1_m_1287_4_alg».proof.Proof.PoolNet
import proofs.«127208_g75806172774760_cont_9to1_m_1287_4_alg».proof.Proof.LibPlainDot
import proofs.«127208_g75806172774760_cont_9to1_m_1287_4_alg».proof.Proof.LibVectorReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen Cert.KernelIdeal.BodyParts

/-! ## The three plain products read at an entry -/

/-- The product of the pooled features with the second convolution's weights, at `(p, c)`:
    `∑ a, l (p, a) * r (a, c)`. -/
theorem dotFeat_apply (l : FVec Ideal S512x32 .f32) (r : FVec Ideal S32x32 .f32) (p : Fin 512) (c : Fin 32) :
    matmul dot_S512x32_S32x32_S512x32_1_0_0_1_n_n none l r (constant S512x32 .f32 0x00000000#32) (ix2 p c)
      = ∑ a : Fin 32, l (ix2 p a) * r (ix2 a c) :=
  LibPlainDot.matmul_zero_plain dot_S512x32_S32x32_S512x32_1_0_0_1_n_n rfl rfl
    (fun i q => by
      unfold DotDims.lhsIdx
      rw [dif_neg (show ¬(0 : Fin S512x32.rank) ∈ dot_S512x32_S32x32_S512x32_1_0_0_1_n_n.lhsBatch by decide),
        dif_pos (show (0 : Fin S512x32.rank) ∈ dot_S512x32_S32x32_S512x32_1_0_0_1_n_n.lhsNonContracting by decide)]
      rfl)
    (fun i q => dot_S512x32_S32x32_S512x32_1_0_0_1_n_n.lhsIdx_val_of_single rfl i q)
    (fun i q => dot_S512x32_S32x32_S512x32_1_0_0_1_n_n.rhsIdx_val_of_single rfl i q)
    (fun i q => by
      unfold DotDims.rhsIdx
      rw [dif_neg (show ¬(1 : Fin S32x32.rank) ∈ dot_S512x32_S32x32_S512x32_1_0_0_1_n_n.rhsBatch by decide),
        dif_pos (show (1 : Fin S32x32.rank) ∈ dot_S512x32_S32x32_S512x32_1_0_0_1_n_n.rhsNonContracting by decide)]
      rfl)
    none l r p c

/-- The product of the normalised adjacency with a `512 × 32` matrix, at `(p, c)`. -/
theorem dotAdj_apply (l : FVec Ideal S512x512 .f32) (r : FVec Ideal S512x32 .f32) (p : Fin 512) (c : Fin 32) :
    matmul dot_S512x512_S512x32_S512x32_1_0_0_1_n_n none l r (constant S512x32 .f32 0x00000000#32) (ix2 p c)
      = ∑ a : Fin 512, l (ix2 p a) * r (ix2 a c) :=
  LibPlainDot.matmul_zero_plain dot_S512x512_S512x32_S512x32_1_0_0_1_n_n rfl rfl
    (fun i q => by
      unfold DotDims.lhsIdx
      rw [dif_neg (show ¬(0 : Fin S512x512.rank) ∈ dot_S512x512_S512x32_S512x32_1_0_0_1_n_n.lhsBatch by decide),
        dif_pos (show (0 : Fin S512x512.rank) ∈ dot_S512x512_S512x32_S512x32_1_0_0_1_n_n.lhsNonContracting by decide)]
      rfl)
    (fun i q => dot_S512x512_S512x32_S512x32_1_0_0_1_n_n.lhsIdx_val_of_single rfl i q)
    (fun i q => dot_S512x512_S512x32_S512x32_1_0_0_1_n_n.rhsIdx_val_of_single rfl i q)
    (fun i q => by
      unfold DotDims.rhsIdx
      rw [dif_neg (show ¬(1 : Fin S512x32.rank) ∈ dot_S512x512_S512x32_S512x32_1_0_0_1_n_n.rhsBatch by decide),
        dif_pos (show (1 : Fin S512x32.rank) ∈ dot_S512x512_S512x32_S512x32_1_0_0_1_n_n.rhsNonContracting by decide)]
      rfl)
    none l r p c

/-- The last dense layer's product of a row of length 32 with a `32 × 2` matrix, at `(p, c)`. -/
theorem dotDense_apply (l : FVec Ideal S1x32 .f32) (r : FVec Ideal S32x2 .f32) (p : Fin 1) (c : Fin 2) :
    matmul dot_S1x32_S32x2_S1x2_1_0_0_1_n_n none l r (constant S1x2 .f32 0x00000000#32) (ix2 p c)
      = ∑ a : Fin 32, l (ix2 p a) * r (ix2 a c) :=
  LibPlainDot.matmul_zero_plain dot_S1x32_S32x2_S1x2_1_0_0_1_n_n rfl rfl
    (fun i q => by
      unfold DotDims.lhsIdx
      rw [dif_neg (show ¬(0 : Fin S1x32.rank) ∈ dot_S1x32_S32x2_S1x2_1_0_0_1_n_n.lhsBatch by decide),
        dif_pos (show (0 : Fin S1x32.rank) ∈ dot_S1x32_S32x2_S1x2_1_0_0_1_n_n.lhsNonContracting by decide)]
      rfl)
    (fun i q => dot_S1x32_S32x2_S1x2_1_0_0_1_n_n.lhsIdx_val_of_single rfl i q)
    (fun i q => dot_S1x32_S32x2_S1x2_1_0_0_1_n_n.rhsIdx_val_of_single rfl i q)
    (fun i q => by
      unfold DotDims.rhsIdx
      rw [dif_neg (show ¬(1 : Fin S32x2.rank) ∈ dot_S1x32_S32x2_S1x2_1_0_0_1_n_n.rhsBatch by decide),
        dif_pos (show (1 : Fin S32x2.rank) ∈ dot_S1x32_S32x2_S1x2_1_0_0_1_n_n.rhsNonContracting by decide)]
      rfl)
    none l r p c

/-! ## The sum over the first axis -/

/-- The sum over the first axis of an `[A, B]` array, at `c`: `∑ k, src (k, c)`. -/
theorem sum_first2_apply {A B : ℕ} (src : FVec Ideal ⟨2, ![A, B]⟩ .f32)
    (h : (⟨2, ![A, B]⟩ : Shape).Reduces [(0 : Fin 2)] ⟨1, ![B]⟩) (hφ : FKind.Formats .f32)
    (hacc : (0x00000000#32 : BitVec 32) = FKind.add.neutral .f32 hφ) (c : Fin B) :
    multiReduction .add [(0 : Fin 2)] ⟨1, ![B]⟩ src 0x00000000#32 h hφ hacc (ix1 c)
      = ∑ k : Fin A, src (ix2 k c) := by
  refine (Ideal.multiReduction_add_single src _ h hφ hacc (ix1 c)).trans ?_
  refine Finset.sum_congr rfl fun k _ => congrArg src ?_
  funext a
  apply Fin.ext
  match a with
  | ⟨0, _⟩ => rfl
  | ⟨1, _⟩ => rfl

/-! ## The second convolution at an entry -/

/-- The second convolution's rectified output at `(k, d)`:
    `max ((∑ l, q (k, l) * ∑ c, xp (l, c) * W2 (c, d)) + b2 d) 0`. -/
theorem conv2_apply (v37 : FVec Ideal S512x32 .f32) (v61 : FVec Ideal S512x512 .f32) (v62 : Vec Ideal S32x32 .f32)
    (v65 : Vec Ideal S32 .f32) (k : Fin 512) (d : Fin 32) :
    maximumf
        (addf
          (matmul dot_S512x512_S512x32_S512x32_1_0_0_1_n_n none v61
            (matmul (φ₂ := .f32) dot_S512x32_S32x32_S512x32_1_0_0_1_n_n none v37 v62 (constant S512x32 .f32 0x00000000#32))
            (constant S512x32 .f32 0x00000000#32))
          (broadcastTo S512x32 (shapeCast S1x32 v65 shapeCasts_S32_S1x32) broadcasts_S1x32_S512x32))
        (broadcast S512x32 (Scalar.ofBits (F := Ideal) .f32 0x00000000#32)) (ix2 k d)
      = PoolNet.conv2 (fun k l => v61 (ix2 k l)) (fun k c => v37 (ix2 k c)) (PoolNet.mat v62) (PoolNet.vec v65) k d := by
  unfold PoolNet.conv2
  refine (maximumf_apply _ _ _).trans ?_
  refine congrArg₂ max ?_ ?_
  · refine (addf_apply _ _ _).trans ?_
    refine congrArg₂ (· + ·) ?_ ?_
    · refine (dotAdj_apply _ _ k d).trans ?_
      refine Finset.sum_congr rfl fun l _ => ?_
      exact congrArg (v61 (ix2 k l) * ·) (dotFeat_apply v37 v62 l d)
    · exact LibVectorReads.bias_rows_apply v65 _ _ k d
  · exact Ideal.ofBits_zero_f32

/-- The read-out at output j. -/
theorem readoutPart_apply (v37 : FVec Ideal S512x32 .f32) (v61 : FVec Ideal S512x512 .f32) (v62 : Vec Ideal S32x32 .f32)
    (v65 : Vec Ideal S32 .f32) (v73 : Vec Ideal S32x2 .f32) (v75 : Vec Ideal S2 .f32) (j : Fin 2) :
    readoutPart (F := Ideal) v37 v61 v62 v65 v73 v75 (ix2 (0 : Fin 1) j)
      = PoolNet.readout (PoolNet.conv2 (fun k l => v61 (ix2 k l)) (fun k c => v37 (ix2 k c)) (PoolNet.mat v62) (PoolNet.vec v65))
          (PoolNet.mat v73) (PoolNet.vec v75) j := by
  unfold readoutPart PoolNet.readout
  dsimp only
  refine (addf_apply _ _ _).trans ?_
  refine congrArg₂ (· + ·) ?_ ?_
  · refine (dotDense_apply _ _ 0 j).trans ?_
    refine Finset.sum_congr rfl fun c _ => ?_
    refine congrArg (· * v73 (ix2 c j)) ?_
    refine (shapeCast_a_1a_apply _ _ 0 c).trans ?_
    refine (sum_first2_apply _ _ _ _ c).trans ?_
    refine Finset.sum_congr rfl fun k _ => ?_
    exact conv2_apply v37 v61 v62 v65 k c
  · exact shapeCast_a_1a_apply v75 _ 0 j

end Cert.KernelIdeal.BodyValue

end
-- ==== Proof.BodyValue.lean ====
/-
  What the kernel body stores, read at an entry: the output block [1, 1, 2] at (0, 0, j) is output j of the network
  `PoolNet.net` on the one graph whose blocks the body loaded — its features, its mask column, its adjacency — and on
  the weights.
  The body's one store covers the whole output block, every load reads a whole block, and the stored value is the second
  payload over the first three; each payload read at an entry is a piece of the specification (the five modules
  imported here), and what is left is to compose them: the entry-wise facts become equalities of functions, rewritten
  inside one another.
-/
import proofs.«127208_g75806172774760_cont_9to1_m_1287_4_alg».proof.Proof.Gen.KernelIdeal.Frame
import proofs.«127208_g75806172774760_cont_9to1_m_1287_4_alg».proof.Proof.BodyConv
import proofs.«127208_g75806172774760_cont_9to1_m_1287_4_alg».proof.Proof.BodyAssign
import proofs.«127208_g75806172774760_cont_9to1_m_1287_4_alg».proof.Proof.BodyPool
import proofs.«127208_g75806172774760_cont_9to1_m_1287_4_alg».proof.Proof.BodyNorm
import proofs.«127208_g75806172774760_cont_9to1_m_1287_4_alg».proof.Proof.BodyReadout

noncomputable section

namespace Cert.KernelIdeal.BodyValue

open Idealize.ShloMosaic Idealize.ShloMosaic.ValueIdx Cert.KernelIdeal Cert.KernelIdeal.Gen Cert.KernelIdeal.BodyParts

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The stored vector is the [1, 2] result with a unit axis inserted: entry (0, 0, j) is entry (0, j). -/
theorem pay1_apply (v77 : FVec Ideal S1x2 .f32) (j : Fin 2) :
    k0_pay1 (F := Ideal) v77 (ix3 (0 : Fin 1) (0 : Fin 1) j) = v77 (ix2 (0 : Fin 1) j) := by
  unfold k0_pay1
  exact shapeCast_ab_1ab_apply v77 _ (0 : Fin 1) (0 : Fin 1) j

/-- The output block after the body, at (0, 0, j). -/
theorem body_value (x0 : Vec Ideal S1x1024x128 .f32) (x1 : Vec Ideal S1x1024x1 .f32) (x2 : Vec Ideal S1x1024x1024 .f32)
    (x3 : Vec Ideal S128x32 .f32) (x4 : Vec Ideal S32 .f32) (x5 : Vec Ideal S32x512 .f32) (x6 : Vec Ideal S512 .f32)
    (x7 : Vec Ideal S32x32 .f32) (x8 : Vec Ideal S32 .f32) (x9 : Vec Ideal S32x2 .f32) (x10 : Vec Ideal S2 .f32) (j : Fin 2) :
    out0_11 (F := Ideal) x0 x1 x2 x3 x4 x5 x6 x7 x8 x9 x10 (ix3 (0 : Fin 1) (0 : Fin 1) j)
      = PoolNet.net (fun n f => x0 (ix3 (0 : Fin 1) n f)) (fun n => x1 (ix3 (0 : Fin 1) n (0 : Fin 1)))
          (fun n m => x2 (ix3 (0 : Fin 1) n m)) (PoolNet.mat x3) (PoolNet.vec x4) (PoolNet.mat x5) (PoolNet.vec x6)
          (PoolNet.mat x7) (PoolNet.vec x8) (PoolNet.mat x9) (PoolNet.vec x10) j := by
  have hH : (fun n c => k0_pay4 (F := Ideal) x0 x1 x2 x3 x4 (ix2 n c))
      = PoolNet.conv (fun n f => x0 (ix3 (0 : Fin 1) n f)) (fun n m => x2 (ix3 (0 : Fin 1) n m))
          (fun n => x1 (ix3 (0 : Fin 1) n (0 : Fin 1))) (PoolNet.mat x3) (PoolNet.vec x4) :=
    funext fun n => funext fun c => pay4_apply x0 x1 x2 x3 x4 n c
  have hS : (fun n k => k0_pay5 (F := Ideal) x0 x1 x2 x3 x4 x5 x6 (ix2 n k))
      = PoolNet.assign (PoolNet.logits (PoolNet.conv (fun n f => x0 (ix3 (0 : Fin 1) n f)) (fun n m => x2 (ix3 (0 : Fin 1) n m))
          (fun n => x1 (ix3 (0 : Fin 1) n (0 : Fin 1))) (PoolNet.mat x3) (PoolNet.vec x4)) (PoolNet.mat x5) (PoolNet.vec x6))
          (fun n => x1 (ix3 (0 : Fin 1) n (0 : Fin 1))) := by
    funext n k
    rw [pay5_apply, hH]
  have hS' : (fun n k => k0_pay6 (F := Ideal) x0 x1 x2 x3 x4 x5 x6 (ix2 n k))
      = (fun n k => k0_pay5 (F := Ideal) x0 x1 x2 x3 x4 x5 x6 (ix2 n k)) := rfl
  have hA : (fun n m => k0_pay3 (F := Ideal) x2 (ix2 n m)) = fun n m => x2 (ix3 (0 : Fin 1) n m) :=
    funext fun n => funext fun m => pay3_apply x2 n m
  unfold out0_11
  rw [View.canon_unit_zero zero3]
  simp only [View.ld_unit_zero (S := S1x1024x128) zero3, View.ld_unit_zero (S := S1x1024x1) zero3,
    View.ld_unit_zero (S := S1x1024x1024) zero3, View.ld_unit_zero (S := S128x32) zero2, View.ld_unit_zero (S := S32) zero1,
    View.ld_unit_zero (S := S32x512) zero2, View.ld_unit_zero (S := S512) zero1, View.ld_unit_zero (S := S32x32) zero2,
    View.ld_unit_zero (S := S32x2) zero2, View.ld_unit_zero (S := S2) zero1]
  rw [pay1_apply, pay7_eq, readoutPart_apply]
  simp only [normalized_apply, pooledAdj_apply, pooledFeat_apply, hS', hS, hH, hA]
  rfl

end Cert.KernelIdeal.BodyValue

end
-- ==== Proof.KernelRun.lean ====
/-
  The kernel program's result as a function of its arguments.

  @main slices the node data into features and mask, launches the region on a grid of 8 points — point t stages graph
  t's feature block, mask block and adjacency block and the whole weight arrays, and writes back block t of an
  [8, 1, 2] array — and reshapes that array to [8, 2].
  * `entry_feats`, `entry_mask`: the two arrays the slices leave for the region.
  * `block_*`: each input block at point t read at an entry, as the argument arrays read at graph t (a block's
    coordinate is the block index times the block size plus the coordinate inside the block).
  * `flushed_eq`: what point t writes back is block t of `stacked`, the array whose entry (b, 0, j) is output j of
    graph b — the body's value (`BodyValue.body_value`) at the point's blocks.
  * `covered`, `final`: the 8 blocks tile the array, so the region leaves `stacked`.
  * `tail_eq`, `run`: the reshape's result is `PoolNet.outputs` of the arguments; the run.
-/
import proofs.«127208_g75806172774760_cont_9to1_m_1287_4_alg».proof.Proof.Gen.KernelIdeal.Frame
import proofs.«127208_g75806172774760_cont_9to1_m_1287_4_alg».proof.Proof.BodyValue
import Idealize.ShloMosaic.Lib.StableHlo.Run
import Idealize.ShloMosaic.Lib.Pipeline.Value
import Idealize.ShloMosaic.Lib.ValueIdx

set_option maxRecDepth 16384

noncomputable section

namespace Cert.KernelIdeal.RunValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem entry_feats (c : Dev nD) :
    (V m c main_v0 : S8x1024x128.Idx → EReal)
      = extractStridedSlice S8x1024x128 ![0, 0, 0] (m ((c : Thread nD τ).loc main_arg0)) slices_S8x1024x129_S8x1024x128_0_0_0 := by
  show StableHlo.after hostOps0 (fun b => m (c, b)) (Proc.devRef .tc main_v0) = _
  after_results

/-- Grid point t is graph t. -/
def graph (t : Fin cfg0.N) : Fin 8 := ⟨t.val, lt_of_lt_of_eq t.isLt N_0⟩

theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_11.index t (0 : Fin 3) = t.val ∧ win0_11.index t (1 : Fin 3) = 0 ∧ win0_11.index t (2 : Fin 3) = 0) :=
  (by decide +kernel : ∀ t : Fin grid0.N, _)

theorem block_feats (c : Dev nD) (t : Fin cfg0.N) (n : Fin 1024) (f : Fin 128) :
    (iblk m c 0 t : Vec Ideal S1x1024x128 .f32) (ix3 (0 : Fin 1) n f)
      = PoolNet.feats (m ((c : Thread nD τ).loc main_arg0)) (graph t) n f := by
  obtain ⟨⟨e0, e1, e2⟩, -⟩ := index_facts t
  unfold iblk
  rw [View.read_apply]
  show (V m c main_v0 : S8x1024x128.Idx → EReal) _ = _
  rw [entry_feats]
  unfold PoolNet.feats
  refine extractStridedSlice_apply _ _ _ _ _ (fun a => ?_)
  match a with
  | ⟨0, _⟩ => show t.val = 0 + (win0_0.index t (0 : Fin 3) * 1 + 1 * 0); omega
  | ⟨1, _⟩ => show n.val = 0 + (win0_0.index t (1 : Fin 3) * 1024 + 1 * n.val); omega
  | ⟨2, _⟩ => show f.val = 0 + (win0_0.index t (2 : Fin 3) * 128 + 1 * f.val); omega

theorem entry_mask (c : Dev nD) :
    (V m c main_v1 : S8x1024x1.Idx → EReal)
      = extractStridedSlice S8x1024x1 ![0, 0, 128] (m ((c : Thread nD τ).loc main_arg0)) slices_S8x1024x129_S8x1024x1_0_0_128 := by
  show StableHlo.after hostOps0 (fun b => m (c, b)) (Proc.devRef .tc main_v1) = _
  after_results

theorem block_mask (c : Dev nD) (t : Fin cfg0.N) (n : Fin 1024) :
    (iblk m c 1 t : Vec Ideal S1x1024x1 .f32) (ix3 (0 : Fin 1) n (0 : Fin 1))
      = PoolNet.mask (m ((c : Thread nD τ).loc main_arg0)) (graph t) n := by
  obtain ⟨-, ⟨e0, e1, e2⟩, -⟩ := index_facts t
  unfold iblk
  rw [View.read_apply]
  show (V m c main_v1 : S8x1024x1.Idx → EReal) _ = _
  rw [entry_mask]
  unfold PoolNet.mask
  refine extractStridedSlice_apply _ _ _ _ _ (fun a => ?_)
  match a with
  | ⟨0, _⟩ => show t.val = 0 + (win0_1.index t (0 : Fin 3) * 1 + 1 * 0); omega
  | ⟨1, _⟩ => show n.val = 0 + (win0_1.index t (1 : Fin 3) * 1024 + 1 * n.val); omega
  | ⟨2, _⟩ => show 128 = 128 + (win0_1.index t (2 : Fin 3) * 1 + 1 * 0); omega

theorem block_adj (c : Dev nD) (t : Fin cfg0.N) (n k : Fin 1024) :
    (iblk m c 2 t : Vec Ideal S1x1024x1024 .f32) (ix3 (0 : Fin 1) n k)
      = PoolNet.adj (m ((c : Thread nD τ).loc main_arg1)) (graph t) n k := by
  obtain ⟨-, -, ⟨e0, e1, e2⟩, -⟩ := index_facts t
  unfold iblk
  rw [View.read_apply]
  show V m c main_arg1 _ = _
  rw [V_main_arg1]
  unfold PoolNet.adj
  refine congrArg (m ((c : Thread nD τ).loc main_arg1) : S8x1024x1024.Idx → EReal) (funext fun a => Fin.ext ?_)
  match a with
  | ⟨0, _⟩ => show win0_2.index t (0 : Fin 3) * 1 + 1 * 0 = t.val; omega
  | ⟨1, _⟩ => show win0_2.index t (1 : Fin 3) * 1024 + 1 * n.val = n.val; omega
  | ⟨2, _⟩ => show win0_2.index t (2 : Fin 3) * 1024 + 1 * k.val = k.val; omega

theorem weight_index_facts : ∀ t : Fin cfg0.N,
    (win0_3.index t (0 : Fin 2) = 0 ∧ win0_3.index t (1 : Fin 2) = 0) ∧ win0_4.index t (0 : Fin 1) = 0
    ∧ (win0_5.index t (0 : Fin 2) = 0 ∧ win0_5.index t (1 : Fin 2) = 0) ∧ win0_6.index t (0 : Fin 1) = 0
    ∧ (win0_7.index t (0 : Fin 2) = 0 ∧ win0_7.index t (1 : Fin 2) = 0) ∧ win0_8.index t (0 : Fin 1) = 0
    ∧ (win0_9.index t (0 : Fin 2) = 0 ∧ win0_9.index t (1 : Fin 2) = 0) ∧ win0_10.index t (0 : Fin 1) = 0 :=
  (by decide +kernel : ∀ t : Fin grid0.N, _)

theorem block_W1 (c : Dev nD) (t : Fin cfg0.N) :
    (iblk m c 3 t : Vec Ideal S128x32 .f32) = m ((c : Thread nD τ).loc main_arg2) := by
  obtain ⟨⟨e0, e1⟩, -⟩ := weight_index_facts t
  funext y
  unfold iblk
  rw [View.read_apply]
  show V m c main_arg2 _ = _
  rw [V_main_arg2]
  refine congrArg (m ((c : Thread nD τ).loc main_arg2) : S128x32.Idx → EReal) (funext fun a => Fin.ext ?_)
  match a with
  | ⟨0, _⟩ => show win0_3.index t (0 : Fin 2) * 128 + 1 * (y 0).val = (y 0).val; omega
  | ⟨1, _⟩ => show win0_3.index t (1 : Fin 2) * 32 + 1 * (y 1).val = (y 1).val; omega

theorem block_b1 (c : Dev nD) (t : Fin cfg0.N) :
    (iblk m c 4 t : Vec Ideal S32 .f32) = m ((c : Thread nD τ).loc main_arg3) := by
  obtain ⟨-, e0, -⟩ := weight_index_facts t
  funext y
  unfold iblk
  rw [View.read_apply]
  show V m c main_arg3 _ = _
  rw [V_main_arg3]
  refine congrArg (m ((c : Thread nD τ).loc main_arg3) : S32.Idx → EReal) (funext fun a => Fin.ext ?_)
  match a with
  | ⟨0, _⟩ => show win0_4.index t (0 : Fin 1) * 32 + 1 * (y 0).val = (y 0).val; omega

theorem block_Ws (c : Dev nD) (t : Fin cfg0.N) :
    (iblk m c 5 t : Vec Ideal S32x512 .f32) = m ((c : Thread nD τ).loc main_arg4) := by
  obtain ⟨-, -, ⟨e0, e1⟩, -⟩ := weight_index_facts t
  funext y
  unfold iblk
  rw [View.read_apply]
  show V m c main_arg4 _ = _
  rw [V_main_arg4]
  refine congrArg (m ((c : Thread nD τ).loc main_arg4) : S32x512.Idx → EReal) (funext fun a => Fin.ext ?_)
  match a with
  | ⟨0, _⟩ => show win0_5.index t (0 : Fin 2) * 32 + 1 * (y 0).val = (y 0).val; omega
  | ⟨1, _⟩ => show win0_5.index t (1 : Fin 2) * 512 + 1 * (y 1).val = (y 1).val; omega

theorem block_bs (c : Dev nD) (t : Fin cfg0.N) :
    (iblk m c 6 t : Vec Ideal S512 .f32) = m ((c : Thread nD τ).loc main_arg5) := by
  obtain ⟨-, -, -, e0, -⟩ := weight_index_facts t
  funext y
  unfold iblk
  rw [View.read_apply]
  show V m c main_arg5 _ = _
  rw [V_main_arg5]
  refine congrArg (m ((c : Thread nD τ).loc main_arg5) : S512.Idx → EReal) (funext fun a => Fin.ext ?_)
  match a with
  | ⟨0, _⟩ => show win0_6.index t (0 : Fin 1) * 512 + 1 * (y 0).val = (y 0).val; omega

theorem block_W2 (c : Dev nD) (t : Fin cfg0.N) :
    (iblk m c 7 t : Vec Ideal S32x32 .f32) = m ((c : Thread nD τ).loc main_arg6) := by
  obtain ⟨-, -, -, -, ⟨e0, e1⟩, -⟩ := weight_index_facts t
  funext y
  unfold iblk
  rw [View.read_apply]
  show V m c main_arg6 _ = _
  rw [V_main_arg6]
  refine congrArg (m ((c : Thread nD τ).loc main_arg6) : S32x32.Idx → EReal) (funext fun a => Fin.ext ?_)
  match a with
  | ⟨0, _⟩ => show win0_7.index t (0 : Fin 2) * 32 + 1 * (y 0).val = (y 0).val; omega
  | ⟨1, _⟩ => show win0_7.index t (1 : Fin 2) * 32 + 1 * (y 1).val = (y 1).val; omega

theorem block_b2 (c : Dev nD) (t : Fin cfg0.N) :
    (iblk m c 8 t : Vec Ideal S32 .f32) = m ((c : Thread nD τ).loc main_arg7) := by
  obtain ⟨-, -, -, -, -, e0, -⟩ := weight_index_facts t
  funext y
  unfold iblk
  rw [View.read_apply]
  show V m c main_arg7 _ = _
  rw [V_main_arg7]
  refine congrArg (m ((c : Thread nD τ).loc main_arg7) : S32.Idx → EReal) (funext fun a => Fin.ext ?_)
  match a with
  | ⟨0, _⟩ => show win0_8.index t (0 : Fin 1) * 32 + 1 * (y 0).val = (y 0).val; omega

theorem block_Wd (c : Dev nD) (t : Fin cfg0.N) :
    (iblk m c 9 t : Vec Ideal S32x2 .f32) = m ((c : Thread nD τ).loc main_arg8) := by
  obtain ⟨-, -, -, -, -, -, ⟨e0, e1⟩, -⟩ := weight_index_facts t
  funext y
  unfold iblk
  rw [View.read_apply]
  show V m c main_arg8 _ = _
  rw [V_main_arg8]
  refine congrArg (m ((c : Thread nD τ).loc main_arg8) : S32x2.Idx → EReal) (funext fun a => Fin.ext ?_)
  match a with
  | ⟨0, _⟩ => show win0_9.index t (0 : Fin 2) * 32 + 1 * (y 0).val = (y 0).val; omega
  | ⟨1, _⟩ => show win0_9.index t (1 : Fin 2) * 2 + 1 * (y 1).val = (y 1).val; omega

theorem block_bd (c : Dev nD) (t : Fin cfg0.N) :
    (iblk m c 10 t : Vec Ideal S2 .f32) = m ((c : Thread nD τ).loc main_arg9) := by
  obtain ⟨-, -, -, -, -, -, -, e0⟩ := weight_index_facts t
  funext y
  unfold iblk
  rw [View.read_apply]
  show V m c main_arg9 _ = _
  rw [V_main_arg9]
  refine congrArg (m ((c : Thread nD τ).loc main_arg9) : S2.Idx → EReal) (funext fun a => Fin.ext ?_)
  match a with
  | ⟨0, _⟩ => show win0_10.index t (0 : Fin 1) * 2 + 1 * (y 0).val = (y 0).val; omega

/-- Two functions on the [1, 1, 2] block agree when they agree at every (0, 0, j). -/
theorem ext_block {α : Type} (g1 g2 : S1x1x2.Idx → α)
    (h : ∀ j : Fin 2, g1 (ix3 (0 : Fin 1) (0 : Fin 1) j) = g2 (ix3 (0 : Fin 1) (0 : Fin 1) j)) : g1 = g2 := by
  funext y
  have e : y = ix3 (0 : Fin 1) (0 : Fin 1) (⟨(y 2).val, (y 2).isLt⟩ : Fin 2) := by
    funext a
    apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl
  rw [e]
  exact h _

/-- The [8, 1, 2] array the region leaves: entry (b, 0, j) is output j of graph b. -/
def stacked (c : Dev nD) : S8x1x2.Idx → EReal := fun i =>
  PoolNet.netOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    ⟨(i 0).val, (i 0).isLt⟩ ⟨(i 2).val, (i 2).isLt⟩

theorem stacked_apply (c : Dev nD) (i : S8x1x2.Idx) (b : Fin 8) (j : Fin 2) (hb : (i 0).val = b.val) (hj : (i 2).val = j.val) :
    stacked m c i = PoolNet.netOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b j := by
  have eb : (⟨(i 0).val, (i 0).isLt⟩ : Fin 8) = b := Fin.ext hb
  have ej : (⟨(i 2).val, (i 2).isLt⟩ : Fin 2) = j := Fin.ext hj
  unfold stacked
  rw [eb, ej]

theorem flushed_eq (c : Dev nD) (t : Fin cfg0.N) :
    (dats m 0 c).flushed 11 t = ((cfg0.win 11).blk t).view.read (Elt Ideal) (stacked m c) := by
  obtain ⟨-, -, -, ⟨e0, e1, e2⟩⟩ := index_facts t
  show (cfg0.win 11).cut (grid0.coords t) ((dats m 0 c).after 11 t) = _
  rw [after0_11]
  refine ext_block _ _ (fun j => ?_)
  show out0_11 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix3 (0 : Fin 1) (0 : Fin 1) j)
      = stacked m c (((cfg0.win 11).blk t).view.emb (ix3 (0 : Fin 1) (0 : Fin 1) j))
  rw [BodyValue.body_value, stacked_apply m c _ (graph t) j
    (by show win0_11.index t (0 : Fin 3) * 1 + 1 * 0 = t.val; omega)
    (by show win0_11.index t (2 : Fin 3) * 2 + 1 * j.val = j.val; omega)]
  simp only [block_feats, block_mask, block_adj, block_W1, block_b1, block_Ws, block_bs, block_W2, block_b2, block_Wd, block_bd]
  rfl

/-- Every entry of the [8, 1, 2] array lies in the block of the point of its graph. -/
theorem covered (i : S8x1x2.Idx) :
    ∃ t : Fin cfg0.N, (cfg0.win 11).flush t = true ∧ i ∈ ((cfg0.win 11).blk t).view.set := by
  have h0 : (i 0).val < 8 := (i 0).isLt
  have h1 : (i 1).val < 1 := (i 1).isLt
  have h2 : (i 2).val < 2 := (i 2).isLt
  let t : Fin cfg0.N := ⟨(i 0).val, lt_of_lt_of_eq h0 N_0.symm⟩
  obtain ⟨-, -, -, ⟨e0, e1, e2⟩⟩ := index_facts t
  refine ⟨t, flush0_11 t, ?_⟩
  show i ∈ ((View.whole main_v2).slice (win0_11.rect t)).set
  rw [View.set_slice_whole, Rect.mem_set_unit]
  intro a
  match a with
  | ⟨0, _⟩ => show win0_11.index t (0 : Fin 3) * 1 ≤ (i 0).val ∧ (i 0).val < win0_11.index t (0 : Fin 3) * 1 + 1; rw [e0]; show (i 0).val * 1 ≤ (i 0).val ∧ (i 0).val < (i 0).val * 1 + 1; omega
  | ⟨1, _⟩ => show win0_11.index t (1 : Fin 3) * 1 ≤ (i 1).val ∧ (i 1).val < win0_11.index t (1 : Fin 3) * 1 + 1; omega
  | ⟨2, _⟩ => show win0_11.index t (2 : Fin 3) * 2 ≤ (i 2).val ∧ (i 2).val < win0_11.index t (2 : Fin 3) * 2 + 2; omega

/-- The region's output array after the run. -/
theorem final (c : Dev nD) : (dats m 0 c).arrAt 11 cfg0.N = stacked m c :=
  (dats m 0 c).arrAt_eq_of_cover 11 (stacked m c) (fun t _ => flushed_eq m c t) (covered)

/-- An [8, 1, 2] array reshaped to [8, 2] reads, at (b, j), the operand at (b, 0, j): the unit axis adds nothing to the
    row-major position. -/
theorem reshape_apply (A : S8x1x2.Idx → EReal) (b : Fin 8) (j : Fin 2) :
    shapeCast S8x2 A shapeCasts_S8x1x2_S8x2 (ix2 b j) = A (ix3 b (0 : Fin 1) j) :=
  shapeCast_apply A _ _ _ (by
    rw [Shape.rowMajor_val_three, Shape.rowMajor_val_two]
    show (b.val * 1 + 0) * 2 + j.val = b.val * 2 + j.val
    omega)

/-- @main's result: the [8, 1, 2] array reshaped to [8, 2]. -/
def result (c : Dev nD) : S8x2.Idx → EReal :=
  PoolNet.outputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have e := Pipeline.withArrays_arr spec0 launch0.win.arr_inj c (V0 m c) (fun w => (dats m 0 c).arrAt w cfg0.N) 11
  have e' : (Pipeline.withArrays spec0 c (V0 m c) (fun w => (dats m 0 c).arrAt w cfg0.N) (Proc.devRef .tc main_v2) : S8x1x2.Idx → EReal)
      = stacked m c := e.trans (final m c)
  funext i
  obtain ⟨b, j, rfl⟩ : ∃ (b : Fin 8) (j : Fin 2), i = ix2 b j := ⟨i 0, i 1, eq_ix2 i⟩
  show shapeCast S8x2 (Pipeline.withArrays spec0 c (V0 m c) (fun w => (dats m 0 c).arrAt w cfg0.N) (Proc.devRef .tc main_v2)) shapeCasts_S8x1x2_S8x2 (ix2 b j) = _
  rw [e', reshape_apply, stacked_apply m c _ b j rfl rfl]
  rfl

/-- The kernel program's run, read: every weakly fair execution terminates with @main's result at `result` — the
    network's outputs of the argument arrays — and the arguments unchanged. The result buffer is written by the
    reshape after the region, the first argument only read by the slices before it, the other arguments staged by the
    region and left as they were. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c)))⟩)
    (run_main m ρ)

end Cert.KernelIdeal.RunValue

end
-- ==== Proof.RefConv.lean ====
/-
The reference's first convolution and cluster assignment read at an entry of graph b.
-/
import proofs.«127208_g75806172774760_cont_9to1_m_1287_4_alg».proof.Proof.Gen.ReferenceIdeal.Read
import proofs.«127208_g75806172774760_cont_9to1_m_1287_4_alg».proof.Proof.PoolNet
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-! ## The convolution -/

/-- Stage 2 (features times the first weight matrix) at (b, m, c). -/
theorem ref_v2 (x0 : (⟨S8x1024x129, .f32⟩ : BufTy).Contents (Elt Ideal))
    (x2 : (⟨S128x32, .f32⟩ : BufTy).Contents (Elt Ideal))
    (b : Fin 8) (m : Fin 1024) (c : Fin 32) :
    val_main_v2 (F := Ideal) x0 x2 (ix3 b m c)
      = ∑ f : Fin 128, PoolNet.feats x0 b m f * PoolNet.mat x2 f c := by
  rw [val_main_v2_apply]
  refine Finset.sum_congr rfl fun f _ => ?_
  rw [val_main_v1_apply]
  have e1 : idx_main_v1 (lidx_main_v2 (ix3 b m c) f)
      = ix3 b m (⟨f.val, Nat.lt_succ_of_lt f.isLt⟩ : Fin 129) :=
    funext fun a => Fin.ext (by match a with | ⟨0, _⟩ => rfl | ⟨1, _⟩ => rfl | ⟨2, _⟩ => rfl)
  have e2 : ridx_main_v2 (ix3 b m c) f = ix2 f c :=
    funext fun a => Fin.ext (by match a with | ⟨0, _⟩ => rfl | ⟨1, _⟩ => rfl)
  rw [e1, e2]
  rfl

/-- Stage 3 (the adjacency times stage 2, graph by graph) at (b, n, c). -/
theorem ref_v3 (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (b : Fin 8) (n : Fin 1024) (c : Fin 32) :
    val_main_v3 (F := Ideal) x0 x1 x2 (ix3 b n c)
      = ∑ m : Fin 1024, PoolNet.adj x1 b n m * ∑ f : Fin 128, PoolNet.feats x0 b m f * PoolNet.mat x2 f c := by
  rw [val_main_v3_apply]
  refine Finset.sum_congr rfl fun m _ => ?_
  have el : lidx_main_v3 (ix3 b n c) m = ix3 b n m :=
    funext fun a => Fin.ext (by match a with | ⟨0, _⟩ => rfl | ⟨1, _⟩ => rfl | ⟨2, _⟩ => rfl)
  have er : ridx_main_v3 (ix3 b n c) m = ix3 b m c :=
    funext fun a => Fin.ext (by match a with | ⟨0, _⟩ => rfl | ⟨1, _⟩ => rfl | ⟨2, _⟩ => rfl)
  rw [el, er, ref_v2]
  rfl

/-- Stage 9 (the masked, rectified convolution) at (b, n, c). -/
theorem ref_conv (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (b : Fin 8) (n : Fin 1024) (c : Fin 32) :
    val_main_v9 (F := Ideal) x0 x1 x2 x3 (ix3 b n c)
      = PoolNet.conv (PoolNet.feats x0 b) (PoolNet.adj x1 b) (PoolNet.mask x0 b) (PoolNet.mat x2) (PoolNet.vec x3) n c := by
  rw [val_main_v9_apply, val_main_v7_apply, val_main_v6_apply, val_main_v8_apply, val_main_v0_apply,
    val_main_call0_v0_apply, val_main_call0_cst_apply, val_main_v5_apply, val_main_v4_apply, ref_v3]
  have e0 : idx_main_v0 (idx_main_v8 (ix3 b n c)) = ix3 b n (⟨128, by decide⟩ : Fin 129) :=
    funext fun a => Fin.ext (by match a with | ⟨0, _⟩ => rfl | ⟨1, _⟩ => rfl | ⟨2, _⟩ => rfl)
  have e4 : idx_main_v4 (idx_main_v5 (ix3 b n c)) = ix1 c :=
    funext fun a => Fin.ext (by match a with | ⟨0, _⟩ => rfl)
  rw [e0, e4, Ideal.mulf_def, Ideal.maximumf_def, Ideal.addf_def, Ideal.ofBits_def, Ideal.ofBits_zero_f32]
  rfl

/-! ## The assignment -/

/-- Stage 13 (the dense layer on stage 9) at (b, n, k). -/
theorem ref_v13 (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (b : Fin 8) (n : Fin 1024) (k : Fin 512) :
    val_main_v13 (F := Ideal) x0 x1 x2 x3 x4 x5 (ix3 b n k)
      = PoolNet.logits (fun n c => val_main_v9 (F := Ideal) x0 x1 x2 x3 (ix3 b n c)) (PoolNet.mat x4) (PoolNet.vec x5) n k := by
  rw [val_main_v13_apply, val_main_v10_apply, val_main_v12_apply, val_main_v11_apply]
  have e11 : idx_main_v11 (idx_main_v12 (ix3 b n k)) = ix1 k :=
    funext fun a => Fin.ext (by match a with | ⟨0, _⟩ => rfl)
  rw [e11, Ideal.addf_def]
  unfold PoolNet.logits
  refine congrArg (· + PoolNet.vec x5 k) (Finset.sum_congr rfl fun c _ => ?_)
  have el : lidx_main_v10 (ix3 b n k) c = ix3 b n c :=
    funext fun a => Fin.ext (by match a with | ⟨0, _⟩ => rfl | ⟨1, _⟩ => rfl | ⟨2, _⟩ => rfl)
  have er : ridx_main_v10 (ix3 b n k) c = ix2 c k :=
    funext fun a => Fin.ext (by match a with | ⟨0, _⟩ => rfl | ⟨1, _⟩ => rfl)
  rw [el, er]
  rfl

/-- The reduced index (b, n) with cluster k put back is (b, n, k). -/
theorem lift_ix3 (h : S8x1024x512.Reduces [2] S8x1024) (b : Fin 8) (n : Fin 1024)
    (k : Fin (S8x1024x512.size 2)) : h.lift (ix2 b n) k = ix3 b n (⟨k.val, k.isLt⟩ : Fin 512) := by
  funext a
  apply Fin.ext
  match a with
  | ⟨0, _⟩ => rfl
  | ⟨1, _⟩ => rfl
  | ⟨2, _⟩ => rfl

/-- Stage 14 (each row's maximum, folded from −∞) at (b, n). -/
theorem ref_v14 (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (b : Fin 8) (n : Fin 1024) :
    val_main_v14 (F := Ideal) x0 x1 x2 x3 x4 x5 (ix2 b n)
      = PoolNet.rowMax (PoolNet.logits (fun n c => val_main_v9 (F := Ideal) x0 x1 x2 x3 (ix3 b n c)) (PoolNet.mat x4) (PoolNet.vec x5)) n := by
  have h : S8x1024x512.Reduces [2] S8x1024 := by decide
  unfold val_main_v14
  rw [Host.reduce_eq_fold_single FloatOps.maximumf _ _ reducesTo_S8x1024x512_S8x1024_d2 h h_S_]
  unfold PoolNet.rowMax
  have hf : (val_main_v13 (F := Ideal) x0 x1 x2 x3 x4 x5 ∘ h.lift (ix2 b n))
      = fun k : Fin 512 => (PoolNet.logits (fun n c => val_main_v9 (F := Ideal) x0 x1 x2 x3 (ix3 b n c)) (PoolNet.mat x4) (PoolNet.vec x5)) n k :=
    funext fun k => (congrArg (val_main_v13 (F := Ideal) x0 x1 x2 x3 x4 x5) (lift_ix3 h b n k)).trans
      (ref_v13 x0 x1 x2 x3 x4 x5 b n k)
  rw [hf]
  rfl

/-- Stage 16 (the maximum of −∞ and stage 14, which is stage 14) at (b, n). -/
theorem ref_v16 (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (b : Fin 8) (n : Fin 1024) :
    val_main_v16 (F := Ideal) x0 x1 x2 x3 x4 x5 (ix2 b n)
      = PoolNet.rowMax (PoolNet.logits (fun n c => val_main_v9 (F := Ideal) x0 x1 x2 x3 (ix3 b n c)) (PoolNet.mat x4) (PoolNet.vec x5)) n := by
  rw [val_main_v16_apply, val_main_v15_apply, val_main_cst_0_apply, ref_v14, Ideal.maximumf_def, Ideal.ofBits_def]
  generalize PoolNet.rowMax (PoolNet.logits (fun n c => val_main_v9 (F := Ideal) x0 x1 x2 x3 (ix3 b n c)) (PoolNet.mat x4) (PoolNet.vec x5)) n = y
  show max (Ideal.ofBits .f32 0xFF800000#32) y = y
  simp [Ideal.ofBits, Ideal.ieee]

/-- Stage 20 (the exponential of the shifted logit) at (b, n, k). -/
theorem ref_v20 (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (b : Fin 8) (n : Fin 1024) (k : Fin 512) :
    val_main_v20 (F := Ideal) x0 x1 x2 x3 x4 x5 (ix3 b n k)
      = Ideal.exp ((PoolNet.logits (fun n c => val_main_v9 (F := Ideal) x0 x1 x2 x3 (ix3 b n c)) (PoolNet.mat x4) (PoolNet.vec x5)) n k - PoolNet.rowMax (PoolNet.logits (fun n c => val_main_v9 (F := Ideal) x0 x1 x2 x3 (ix3 b n c)) (PoolNet.mat x4) (PoolNet.vec x5)) n) := by
  rw [val_main_v20_apply, val_main_v19_apply, val_main_v18_apply, val_main_v17_apply, ref_v13]
  have e : idx_main_v17 (idx_main_v18 (ix3 b n k)) = ix2 b n :=
    funext fun a => Fin.ext (by match a with | ⟨0, _⟩ => rfl | ⟨1, _⟩ => rfl)
  rw [e, ref_v16, Ideal.hostUnary_exp_def, Ideal.subf_def]

/-- Stage 21 (each row's sum of exponentials) at (b, n). -/
theorem ref_v21 (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (b : Fin 8) (n : Fin 1024) :
    val_main_v21 (F := Ideal) x0 x1 x2 x3 x4 x5 (ix2 b n)
      = ∑ k' : Fin 512, Ideal.exp ((PoolNet.logits (fun n c => val_main_v9 (F := Ideal) x0 x1 x2 x3 (ix3 b n c)) (PoolNet.mat x4) (PoolNet.vec x5)) n k' - PoolNet.rowMax (PoolNet.logits (fun n c => val_main_v9 (F := Ideal) x0 x1 x2 x3 (ix3 b n c)) (PoolNet.mat x4) (PoolNet.vec x5)) n) := by
  rw [val_main_v21_apply, val_main_cst_1_apply, Ideal.ofBits_def, Ideal.ofBits_zero_f32, zero_add]
  refine Finset.sum_congr rfl fun k' _ => ?_
  have e : idx_main_v21 (ix2 b n) k' = ix3 b n k' :=
    funext fun a => Fin.ext (by match a with | ⟨0, _⟩ => rfl | ⟨1, _⟩ => rfl | ⟨2, _⟩ => rfl)
  rw [e, ref_v20]

/-- Stage 26 (the masked row softmax) at (b, n, k), over stage 9 kept as it is. -/
theorem ref_assign (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (b : Fin 8) (n : Fin 1024) (k : Fin 512) :
    val_main_v26 (F := Ideal) x0 x1 x2 x3 x4 x5 (ix3 b n k)
      = PoolNet.assign (PoolNet.logits (fun n c => val_main_v9 (F := Ideal) x0 x1 x2 x3 (ix3 b n c)) (PoolNet.mat x4) (PoolNet.vec x5))
          (PoolNet.mask x0 b) n k := by
  rw [val_main_v26_apply, val_main_v24_apply, val_main_v25_apply, val_main_v0_apply, val_main_v23_apply,
    val_main_v22_apply, ref_v20]
  have e0 : idx_main_v0 (idx_main_v25 (ix3 b n k)) = ix3 b n (⟨128, by decide⟩ : Fin 129) :=
    funext fun a => Fin.ext (by match a with | ⟨0, _⟩ => rfl | ⟨1, _⟩ => rfl | ⟨2, _⟩ => rfl)
  have e22 : idx_main_v22 (idx_main_v23 (ix3 b n k)) = ix2 b n :=
    funext fun a => Fin.ext (by match a with | ⟨0, _⟩ => rfl | ⟨1, _⟩ => rfl)
  rw [e0, e22, ref_v21, Ideal.mulf_def, Ideal.hostDivf_def]
  rfl

end Cert.ReferenceIdeal.RefValue

end
-- ==== Proof.RefPool.lean ====
/-
The reference's pooled features and its normalised pooled adjacency read at an entry of graph b.
-/
import proofs.«127208_g75806172774760_cont_9to1_m_1287_4_alg».proof.Proof.Gen.ReferenceIdeal.Read
import proofs.«127208_g75806172774760_cont_9to1_m_1287_4_alg».proof.Proof.PoolNet
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-! ## The words and the numbers of the identity-matrix mask -/

/-- Two coordinates below 512 have equal 32-bit words exactly when they are equal. -/
theorem mask_word (k l : Fin 512) :
    IntOp.cmpi .eq (IntOp.addi (BitVec.ofNat 32 k.val) 0#32) (BitVec.ofNat 32 l.val)
      = if k = l then 1#1 else 0#1 := by
  unfold IntOp.cmpi IntOp.addi
  rw [BitVec.add_zero]
  by_cases h : k = l
  · subst h; simp
  · rw [if_neg h]
    have hne : BitVec.ofNat 32 k.val ≠ BitVec.ofNat 32 l.val := by
      intro e
      apply h
      have hk := k.isLt
      have hl := l.isLt
      have e' : (BitVec.ofNat 32 k.val).toNat = (BitVec.ofNat 32 l.val).toNat := congrArg BitVec.toNat e
      rw [BitVec.toNat_ofNat, BitVec.toNat_ofNat] at e'
      exact Fin.ext (by omega)
    have hb : (BitVec.ofNat 32 k.val == BitVec.ofNat 32 l.val) = false := beq_eq_false_iff_ne.mpr hne
    show BitVec.ofBool (BitVec.ofNat 32 k.val == BitVec.ofNat 32 l.val) = 0#1
    rw [hb]
    rfl

/-- The pattern of 1.0 is the number one. -/
theorem one_f32 : Ideal.ofBits .f32 0x3F800000#32 = 1 := IdealRules.sign_bit.ideal_onePat .f32

/-- One minus one is zero on the extended reals. -/
theorem one_sub_one : (1 : EReal) - 1 = 0 :=
  EReal.sub_self (by decide) (by decide)

/-- One minus the bit, as a number: zero on the diagonal and one off it. -/
theorem mask_num (k l : Fin 512) :
    (Ideal.ofBits .f32 0x3F800000#32 : EReal) - ((((if k = l then 1#1 else 0#1 : BitVec 1).toNat : ℝ)) : EReal)
      = if k = l then 0 else 1 := by
  rw [one_f32]
  by_cases h : k = l
  · rw [if_pos h, if_pos h]
    norm_num
    exact one_sub_one
  · rw [if_neg h, if_neg h]
    norm_num

/-! ## The stages, each over the earlier ones kept as they are -/

/-- The mask (stages 30 to 39) at (b, k, l): zero on the diagonal, one off it. -/
theorem mask_at (b : Fin 8) (k l : Fin 512) :
    val_main_v39 (F := Ideal) (ix3 b k l) = if k = l then 0 else 1 := by
  rw [val_main_v39_apply, val_main_v38_apply]
  have e : idx_main_v38 (idx_main_v39 (ix3 b k l)) = ix2 k l := funext fun a => Fin.ext (by
    match a with | ⟨0, _⟩ => rfl | ⟨1, _⟩ => rfl)
  rw [e, val_main_v37_apply, val_main_v36_apply, val_main_cst_2_apply, val_main_v35_apply, val_main_v34_apply,
    val_main_v33_apply, val_main_v30_apply, val_main_v31_apply, val_main_v32_apply, val_main_c_apply]
  show (Ideal.ofBits .f32 0x3F800000#32 : EReal)
      - ((((IntOp.cmpi .eq (IntOp.addi (BitVec.ofNat 32 k.val) 0#32) (BitVec.ofNat 32 l.val)).toNat : ℝ)) : EReal) = _
  rw [mask_word]
  exact mask_num k l

section Stages
variable (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))

/-- Stage 28 (`a · s`) at (b, n, l). -/
theorem v28_at (b : Fin 8) (n : Fin 1024) (l : Fin 512) :
    val_main_v28 (F := Ideal) x0 x1 x2 x3 x4 x5 (ix3 b n l)
      = ∑ m : Fin 1024, PoolNet.adj x1 b n m * val_main_v26 (F := Ideal) x0 x1 x2 x3 x4 x5 (ix3 b m l) := by
  unfold PoolNet.adj
  rw [val_main_v28_apply]
  refine Finset.sum_congr rfl fun m _ => ?_
  have el : lidx_main_v28 (ix3 b n l) m = ix3 b n m := funext fun a => Fin.ext (by
    match a with | ⟨0, _⟩ => rfl | ⟨1, _⟩ => rfl | ⟨2, _⟩ => rfl)
  have er : ridx_main_v28 (ix3 b n l) m = ix3 b m l := funext fun a => Fin.ext (by
    match a with | ⟨0, _⟩ => rfl | ⟨1, _⟩ => rfl | ⟨2, _⟩ => rfl)
  rw [el, er]

/-- Stage 29 (`sᵀ · (a · s)`) at (b, k, l). -/
theorem v29_at (b : Fin 8) (k l : Fin 512) :
    val_main_v29 (F := Ideal) x0 x1 x2 x3 x4 x5 (ix3 b k l)
      = PoolNet.poolAdj (PoolNet.adj x1 b) (fun n k => val_main_v26 (F := Ideal) x0 x1 x2 x3 x4 x5 (ix3 b n k)) k l := by
  unfold PoolNet.poolAdj
  rw [val_main_v29_apply]
  refine Finset.sum_congr rfl fun n _ => ?_
  have el : lidx_main_v29 (ix3 b k l) n = ix3 b n k := funext fun a => Fin.ext (by
    match a with | ⟨0, _⟩ => rfl | ⟨1, _⟩ => rfl | ⟨2, _⟩ => rfl)
  have er : ridx_main_v29 (ix3 b k l) n = ix3 b n l := funext fun a => Fin.ext (by
    match a with | ⟨0, _⟩ => rfl | ⟨1, _⟩ => rfl | ⟨2, _⟩ => rfl)
  rw [el, er, v28_at]

/-- Stage 40 (the pooled adjacency times the mask) at (b, k, l): its diagonal is zero. -/
theorem v40_at (b : Fin 8) (k l : Fin 512) :
    val_main_v40 (F := Ideal) x0 x1 x2 x3 x4 x5 (ix3 b k l)
      = PoolNet.offDiag (PoolNet.poolAdj (PoolNet.adj x1 b) (fun n k => val_main_v26 (F := Ideal) x0 x1 x2 x3 x4 x5 (ix3 b n k))) k l := by
  rw [val_main_v40_apply, v29_at, mask_at]
  unfold PoolNet.offDiag
  generalize PoolNet.poolAdj (PoolNet.adj x1 b) (fun n k => val_main_v26 (F := Ideal) x0 x1 x2 x3 x4 x5 (ix3 b n k)) k l = p
  show p * (if k = l then 0 else 1) = if k = l then 0 else p
  by_cases h : k = l
  · rw [if_pos h, if_pos h, mul_zero]
  · rw [if_neg h, if_neg h, mul_one]

/-- Stage 41 (the row sums, from zero) at (b, k). -/
theorem v41_at (b : Fin 8) (k : Fin 512) :
    val_main_v41 (F := Ideal) x0 x1 x2 x3 x4 x5 (ix2 b k)
      = PoolNet.degree (PoolNet.offDiag (PoolNet.poolAdj (PoolNet.adj x1 b) (fun n k => val_main_v26 (F := Ideal) x0 x1 x2 x3 x4 x5 (ix3 b n k)))) k := by
  unfold PoolNet.degree
  rw [val_main_v41_apply, val_main_cst_3_apply, Ideal.ofBits_def, Ideal.ofBits_zero_f32, zero_add]
  refine Finset.sum_congr rfl fun l _ => ?_
  have e : idx_main_v41 (ix2 b k) l = ix3 b k l := funext fun a => Fin.ext (by
    match a with | ⟨0, _⟩ => rfl | ⟨1, _⟩ => rfl | ⟨2, _⟩ => rfl)
  rw [e, v40_at]

/-- Stage 49 (the guarded inverse square root) at (b, k), over stage 41. -/
theorem v49_at (b : Fin 8) (k : Fin 512) :
    val_main_v49 (F := Ideal) x0 x1 x2 x3 x4 x5 (ix2 b k) = PoolNet.invSqrt (val_main_v41 (F := Ideal) x0 x1 x2 x3 x4 x5 (ix2 b k)) := by
  rw [val_main_v49_apply, val_main_v43_apply, val_main_v48_apply, val_main_v46_apply, val_main_v45_apply,
    val_main_v42_apply, val_main_cst_4_apply, val_main_v44_apply, val_main_cst_5_apply, val_main_v47_apply,
    val_main_cst_6_apply, val_main_call1_v1_apply, val_main_call1_v0_apply, val_main_cst_7_apply]
  generalize val_main_v41 (F := Ideal) x0 x1 x2 x3 x4 x5 (ix2 b k) = d
  unfold PoolNet.invSqrt
  have z : FloatOps.ofBits (F := Ideal) .f32 0x00000000#32 = (0 : EReal) := Ideal.ofBits_zero_f32
  rw [z]
  rfl

/-- Stage 55 (the two scalings) at (b, k, l), over stages 40 and 49. -/
theorem v55_at (b : Fin 8) (k l : Fin 512) :
    val_main_v55 (F := Ideal) x0 x1 x2 x3 x4 x5 (ix3 b k l)
      = val_main_v40 (F := Ideal) x0 x1 x2 x3 x4 x5 (ix3 b k l) * val_main_v49 (F := Ideal) x0 x1 x2 x3 x4 x5 (ix2 b k) * val_main_v49 (F := Ideal) x0 x1 x2 x3 x4 x5 (ix2 b l) := by
  rw [val_main_v55_apply, val_main_v52_apply, val_main_v51_apply, val_main_v50_apply, val_main_v54_apply,
    val_main_v53_apply, Ideal.mulf_def, Ideal.mulf_def]
  have e1 : idx_main_v50 (idx_main_v51 (ix3 b k l)) = ix2 b k := funext fun a => Fin.ext (by
    match a with | ⟨0, _⟩ => rfl | ⟨1, _⟩ => rfl)
  have e2 : idx_main_v53 (idx_main_v54 (ix3 b k l)) = ix2 b l := funext fun a => Fin.ext (by
    match a with | ⟨0, _⟩ => rfl | ⟨1, _⟩ => rfl)
  rw [e1, e2]

end Stages

/-! ## The pooled features and the normalised pooled adjacency -/

/-- Stage 27 (`sᵀ · h`) at (b, k, c), over stages 26 and 9 kept as they are. -/
theorem ref_poolFeat (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (b : Fin 8) (k : Fin 512) (c : Fin 32) :
    val_main_v27 (F := Ideal) x0 x1 x2 x3 x4 x5 (ix3 b k c)
      = PoolNet.poolFeat (fun n k => val_main_v26 (F := Ideal) x0 x1 x2 x3 x4 x5 (ix3 b n k))
          (fun n c => val_main_v9 (F := Ideal) x0 x1 x2 x3 (ix3 b n c)) k c := by
  unfold PoolNet.poolFeat
  rw [val_main_v27_apply]
  refine Finset.sum_congr rfl fun n _ => ?_
  have el : lidx_main_v27 (ix3 b k c) n = ix3 b n k := funext fun a => Fin.ext (by
    match a with | ⟨0, _⟩ => rfl | ⟨1, _⟩ => rfl | ⟨2, _⟩ => rfl)
  have er : ridx_main_v27 (ix3 b k c) n = ix3 b n c := funext fun a => Fin.ext (by
    match a with | ⟨0, _⟩ => rfl | ⟨1, _⟩ => rfl | ⟨2, _⟩ => rfl)
  rw [el, er]

/-- Stage 55 (the pooled adjacency, its diagonal zeroed, scaled by the inverse square roots of its row sums) at (b, k, l),
    over stage 26 kept as it is. -/
theorem ref_normAdj (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (b : Fin 8) (k l : Fin 512) :
    val_main_v55 (F := Ideal) x0 x1 x2 x3 x4 x5 (ix3 b k l)
      = PoolNet.normAdj (PoolNet.offDiag (PoolNet.poolAdj (PoolNet.adj x1 b)
          (fun n k => val_main_v26 (F := Ideal) x0 x1 x2 x3 x4 x5 (ix3 b n k)))) k l := by
  unfold PoolNet.normAdj
  rw [v55_at, v49_at, v49_at, v41_at, v41_at, v40_at]

end Cert.ReferenceIdeal.RefValue

end
-- ==== Proof.RefReadout.lean ====
/-
The reference's second convolution, sum over clusters and last dense layer read at an entry.
-/
import proofs.«127208_g75806172774760_cont_9to1_m_1287_4_alg».proof.Proof.Gen.ReferenceIdeal.Read
import proofs.«127208_g75806172774760_cont_9to1_m_1287_4_alg».proof.Proof.PoolNet
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-- The read-out of the second convolution written out: sums over the 32 channels, the 512 clusters, and inside the
    rectifier the 512 clusters and 32 channels again. -/
theorem readout_conv2_eq (q : Fin 512 → Fin 512 → EReal) (xp : Fin 512 → Fin 32 → EReal) (W2 : Fin 32 → Fin 32 → EReal)
    (b2 : Fin 32 → EReal) (Wd : Fin 32 → Fin 2 → EReal) (bd : Fin 2 → EReal) (j : Fin 2) :
    PoolNet.readout (PoolNet.conv2 q xp W2 b2) Wd bd j
      = (∑ c : Fin 32, (∑ k : Fin 512, max ((∑ l : Fin 512, q k l * ∑ e : Fin 32, xp l e * W2 e c) + b2 c) 0) * Wd c j)
          + bd j := rfl

/-- The last bias, a [2] vector spread over the eight graphs, at (b, j). -/
theorem v65_at (x9 : (⟨S2, .f32⟩ : BufTy).Contents (Elt Ideal)) (b : Fin 8) (j : Fin 2) :
    val_main_v65 (F := Ideal) x9 (ix2 b j) = x9 (ix1 j) := by
  rw [val_main_v65_apply, val_main_v64_apply]
  exact congrArg x9 (funext fun a => Fin.ext (by match a with | ⟨0, _⟩ => rfl))

/-- The second convolution's bias, a [32] vector spread over graphs and clusters, at (b, k, d). -/
theorem v59_at (x7 : (⟨S32, .f32⟩ : BufTy).Contents (Elt Ideal)) (b : Fin 8) (k : Fin 512) (d : Fin 32) :
    val_main_v59 (F := Ideal) x7 (ix3 b k d) = x7 (ix1 d) := by
  rw [val_main_v59_apply, val_main_v58_apply]
  exact congrArg x7 (funext fun a => Fin.ext (by match a with | ⟨0, _⟩ => rfl))

/-- The rectifier's zero splat is zero everywhere. -/
theorem call2_v0_at (i : S8x512x32.Idx) : val_main_call2_v0 (F := Ideal) i = 0 := by
  rw [val_main_call2_v0_apply, val_main_call2_cst_apply, Ideal.ofBits_def, Ideal.ofBits_zero_f32]

/-- The pooled features times the second weight matrix, at (b, l, d). -/
theorem v56_at (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (x6 : (⟨S32x32, .f32⟩ : BufTy).Contents (Elt Ideal)) (b : Fin 8) (l : Fin 512) (d : Fin 32) :
    val_main_v56 (F := Ideal) x0 x1 x2 x3 x4 x5 x6 (ix3 b l d)
      = ∑ c : Fin 32, val_main_v27 (F := Ideal) x0 x1 x2 x3 x4 x5 (ix3 b l c) * x6 (ix2 c d) := by
  rw [val_main_v56_apply]
  refine Finset.sum_congr rfl fun c _ => ?_
  have el : lidx_main_v56 (ix3 b l d) c = ix3 b l c := funext fun a => Fin.ext (by match a with | ⟨0, _⟩ => rfl | ⟨1, _⟩ => rfl | ⟨2, _⟩ => rfl)
  have er : ridx_main_v56 (ix3 b l d) c = ix2 c d := funext fun a => Fin.ext (by match a with | ⟨0, _⟩ => rfl | ⟨1, _⟩ => rfl)
  rw [el, er]

/-- The normalised pooled adjacency times that product, at (b, k, d). -/
theorem v57_at (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (x6 : (⟨S32x32, .f32⟩ : BufTy).Contents (Elt Ideal)) (b : Fin 8) (k : Fin 512) (d : Fin 32) :
    val_main_v57 (F := Ideal) x0 x1 x2 x3 x4 x5 x6 (ix3 b k d)
      = ∑ l : Fin 512, val_main_v55 (F := Ideal) x0 x1 x2 x3 x4 x5 (ix3 b k l) * ∑ c : Fin 32, val_main_v27 (F := Ideal) x0 x1 x2 x3 x4 x5 (ix3 b l c) * x6 (ix2 c d) := by
  rw [val_main_v57_apply]
  refine Finset.sum_congr rfl fun l _ => ?_
  have el : lidx_main_v57 (ix3 b k d) l = ix3 b k l := funext fun a => Fin.ext (by match a with | ⟨0, _⟩ => rfl | ⟨1, _⟩ => rfl | ⟨2, _⟩ => rfl)
  have er : ridx_main_v57 (ix3 b k d) l = ix3 b l d := funext fun a => Fin.ext (by match a with | ⟨0, _⟩ => rfl | ⟨1, _⟩ => rfl | ⟨2, _⟩ => rfl)
  rw [el, er, v56_at]

/-- The second convolution after its bias and rectifier, at (b, k, d). -/
theorem v61_at (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (x6 : (⟨S32x32, .f32⟩ : BufTy).Contents (Elt Ideal))
    (x7 : (⟨S32, .f32⟩ : BufTy).Contents (Elt Ideal)) (b : Fin 8) (k : Fin 512) (d : Fin 32) :
    val_main_v61 (F := Ideal) x0 x1 x2 x3 x4 x5 x6 x7 (ix3 b k d)
      = max ((∑ l : Fin 512, val_main_v55 (F := Ideal) x0 x1 x2 x3 x4 x5 (ix3 b k l) * ∑ c : Fin 32, val_main_v27 (F := Ideal) x0 x1 x2 x3 x4 x5 (ix3 b l c) * x6 (ix2 c d)) + x7 (ix1 d)) 0 := by
  rw [val_main_v61_apply, val_main_v60_apply, call2_v0_at, v57_at, v59_at, Ideal.maximumf_def, Ideal.addf_def]

/-- The sum over the 512 clusters, at (b, c): the initial value is zero. -/
theorem v62_at (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (x6 : (⟨S32x32, .f32⟩ : BufTy).Contents (Elt Ideal))
    (x7 : (⟨S32, .f32⟩ : BufTy).Contents (Elt Ideal)) (b : Fin 8) (c : Fin 32) :
    val_main_v62 (F := Ideal) x0 x1 x2 x3 x4 x5 x6 x7 (ix2 b c)
      = ∑ k : Fin 512, val_main_v61 (F := Ideal) x0 x1 x2 x3 x4 x5 x6 x7 (ix3 b k c) := by
  rw [val_main_v62_apply, val_main_cst_8_apply, Ideal.ofBits_def, Ideal.ofBits_zero_f32, zero_add]
  refine Finset.sum_congr rfl fun k _ => ?_
  exact congrArg _ (funext fun a => Fin.ext (by match a with | ⟨0, _⟩ => rfl | ⟨1, _⟩ => rfl | ⟨2, _⟩ => rfl))

/-- The last dense layer before its bias, at (b, j). -/
theorem v63_at (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (x6 : (⟨S32x32, .f32⟩ : BufTy).Contents (Elt Ideal))
    (x7 : (⟨S32, .f32⟩ : BufTy).Contents (Elt Ideal))
    (x8 : (⟨S32x2, .f32⟩ : BufTy).Contents (Elt Ideal)) (b : Fin 8) (j : Fin 2) :
    val_main_v63 (F := Ideal) x0 x1 x2 x3 x4 x5 x6 x7 x8 (ix2 b j)
      = ∑ c : Fin 32, val_main_v62 (F := Ideal) x0 x1 x2 x3 x4 x5 x6 x7 (ix2 b c) * x8 (ix2 c j) := by
  rw [val_main_v63_apply]
  refine Finset.sum_congr rfl fun c _ => ?_
  have el : lidx_main_v63 (ix2 b j) c = ix2 b c := funext fun a => Fin.ext (by match a with | ⟨0, _⟩ => rfl | ⟨1, _⟩ => rfl)
  have er : ridx_main_v63 (ix2 b j) c = ix2 c j := funext fun a => Fin.ext (by match a with | ⟨0, _⟩ => rfl | ⟨1, _⟩ => rfl)
  rw [el, er]

/-- The result (stage 66) at (b, j), over stages 55 and 27 kept as they are. -/
theorem ref_readout (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (x6 : (⟨S32x32, .f32⟩ : BufTy).Contents (Elt Ideal))
    (x7 : (⟨S32, .f32⟩ : BufTy).Contents (Elt Ideal))
    (x8 : (⟨S32x2, .f32⟩ : BufTy).Contents (Elt Ideal))
    (x9 : (⟨S2, .f32⟩ : BufTy).Contents (Elt Ideal))
    (b : Fin 8) (j : Fin 2) :
    val_main_v66 (F := Ideal) x0 x1 x2 x3 x4 x5 x6 x7 x8 x9 (ix2 b j)
      = PoolNet.readout (PoolNet.conv2 (fun k l => val_main_v55 (F := Ideal) x0 x1 x2 x3 x4 x5 (ix3 b k l))
          (fun k c => val_main_v27 (F := Ideal) x0 x1 x2 x3 x4 x5 (ix3 b k c)) (PoolNet.mat x6) (PoolNet.vec x7))
          (PoolNet.mat x8) (PoolNet.vec x9) j := by
  rw [readout_conv2_eq, val_main_v66_apply, Ideal.addf_def, v63_at, v65_at]
  simp only [PoolNet.mat, PoolNet.vec]
  refine congrArg (· + _) (Finset.sum_congr rfl fun c _ => ?_)
  rw [v62_at]
  refine congrArg (· * _) (Finset.sum_congr rfl fun k _ => ?_)
  exact v61_at x0 x1 x2 x3 x4 x5 x6 x7 b k c

end Cert.ReferenceIdeal.RefValue

end
-- ==== Proof.RefValue.lean ====
/-
  The reference's result, entry by entry: its [8, 2] result array is `PoolNet.outputs` of the argument arrays.
  The three modules imported here read the reference's stages at an entry of graph b, each over the earlier stages kept as
  they are; the entry-wise facts become equalities of functions of the node and cluster coordinates and are rewritten
  inside one another, innermost first: the convolution, the assignment over it, the pooled features and the normalised
  pooled adjacency over those, and the read-out over these two.
-/
import proofs.«127208_g75806172774760_cont_9to1_m_1287_4_alg».proof.Proof.RefConv
import proofs.«127208_g75806172774760_cont_9to1_m_1287_4_alg».proof.Proof.RefPool
import proofs.«127208_g75806172774760_cont_9to1_m_1287_4_alg».proof.Proof.RefReadout

noncomputable section

namespace Cert.ReferenceIdeal.RefValue

open Idealize.ShloMosaic Idealize.ShloMosaic.ValueIdx Cert.ReferenceIdeal Cert.ReferenceIdeal.Gen Cert.ReferenceIdeal.Read

/-- The result at (b, j) is output j of graph b. -/
theorem ref_value (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (x6 : (⟨S32x32, .f32⟩ : BufTy).Contents (Elt Ideal))
    (x7 : (⟨S32, .f32⟩ : BufTy).Contents (Elt Ideal))
    (x8 : (⟨S32x2, .f32⟩ : BufTy).Contents (Elt Ideal))
    (x9 : (⟨S2, .f32⟩ : BufTy).Contents (Elt Ideal))
    (b : Fin 8) (j : Fin 2) :
    val_main_v66 (F := Ideal) x0 x1 x2 x3 x4 x5 x6 x7 x8 x9 (ix2 b j) = PoolNet.netOf x0 x1 x2 x3 x4 x5 x6 x7 x8 x9 b j := by
  have h9 : (fun n c => val_main_v9 (F := Ideal) x0 x1 x2 x3 (ix3 b n c)) = PoolNet.conv (PoolNet.feats x0 b) (PoolNet.adj x1 b) (PoolNet.mask x0 b) (PoolNet.mat x2) (PoolNet.vec x3) :=
    funext fun n => funext fun c => ref_conv x0 x1 x2 x3 b n c
  have h26 : (fun n k => val_main_v26 (F := Ideal) x0 x1 x2 x3 x4 x5 (ix3 b n k)) = PoolNet.assign (PoolNet.logits (PoolNet.conv (PoolNet.feats x0 b) (PoolNet.adj x1 b) (PoolNet.mask x0 b) (PoolNet.mat x2) (PoolNet.vec x3)) (PoolNet.mat x4) (PoolNet.vec x5)) (PoolNet.mask x0 b) := by
    funext n k
    rw [ref_assign, h9]
  have h27 : (fun k c => val_main_v27 (F := Ideal) x0 x1 x2 x3 x4 x5 (ix3 b k c))
      = PoolNet.poolFeat (PoolNet.assign (PoolNet.logits (PoolNet.conv (PoolNet.feats x0 b) (PoolNet.adj x1 b) (PoolNet.mask x0 b) (PoolNet.mat x2) (PoolNet.vec x3)) (PoolNet.mat x4) (PoolNet.vec x5)) (PoolNet.mask x0 b)) (PoolNet.conv (PoolNet.feats x0 b) (PoolNet.adj x1 b) (PoolNet.mask x0 b) (PoolNet.mat x2) (PoolNet.vec x3)) := by
    funext k c
    rw [ref_poolFeat, h26, h9]
  have h55 : (fun k l => val_main_v55 (F := Ideal) x0 x1 x2 x3 x4 x5 (ix3 b k l))
      = PoolNet.normAdj (PoolNet.offDiag (PoolNet.poolAdj (PoolNet.adj x1 b) (PoolNet.assign (PoolNet.logits (PoolNet.conv (PoolNet.feats x0 b) (PoolNet.adj x1 b) (PoolNet.mask x0 b) (PoolNet.mat x2) (PoolNet.vec x3)) (PoolNet.mat x4) (PoolNet.vec x5)) (PoolNet.mask x0 b)))) := by
    funext k l
    rw [ref_normAdj, h26]
  rw [ref_readout, h55, h27]
  rfl

/-- The whole result array. -/
theorem ref_result (x0 : (⟨S8x1024x129, .f32⟩ : BufTy).Contents (Elt Ideal))
    (x1 : (⟨S8x1024x1024, .f32⟩ : BufTy).Contents (Elt Ideal))
    (x2 : (⟨S128x32, .f32⟩ : BufTy).Contents (Elt Ideal))
    (x3 : (⟨S32, .f32⟩ : BufTy).Contents (Elt Ideal))
    (x4 : (⟨S32x512, .f32⟩ : BufTy).Contents (Elt Ideal))
    (x5 : (⟨S512, .f32⟩ : BufTy).Contents (Elt Ideal))
    (x6 : (⟨S32x32, .f32⟩ : BufTy).Contents (Elt Ideal))
    (x7 : (⟨S32, .f32⟩ : BufTy).Contents (Elt Ideal))
    (x8 : (⟨S32x2, .f32⟩ : BufTy).Contents (Elt Ideal))
    (x9 : (⟨S2, .f32⟩ : BufTy).Contents (Elt Ideal)) :
    val_main_v66 (F := Ideal) x0 x1 x2 x3 x4 x5 x6 x7 x8 x9 = PoolNet.outputs x0 x1 x2 x3 x4 x5 x6 x7 x8 x9 := by
  funext i
  obtain ⟨b, j, rfl⟩ : ∃ (b : Fin 8) (j : Fin 2), i = ix2 b j := ⟨i 0, i 1, eq_ix2 i⟩
  rw [ref_value, PoolNet.outputs_apply]

end Cert.ReferenceIdeal.RefValue

end
-- ==== Proof.lean ====
/-
  `Cert.Claim`: a fused kernel for a two-layer graph network with cluster pooling (graph convolution, masked softmax
  assignment to 512 clusters, pooled features and pooled adjacency, zeroed diagonal and symmetric degree scaling, a second
  convolution, sum over clusters, dense read-out) against its plain jnp reference, at the extended reals.

  The kernel runs one graph per grid point, keeps everything of that graph on chip and feeds two of its matrix products
  through a narrower float format; the reference works on all eight graphs at once with batched products. At the
  extended reals a change of float format is the identity and a matrix product, a row sum and a maximum are the exact
  finite sum or maximum, so both programs compute `PoolNet.outputs` of the argument arrays (Proof/PoolNet.lean): the
  kernel by Proof/KernelRun.lean over Proof/BodyValue.lean, the reference by Proof/RefValue.lean over its generated run.
  The two differ only in spelling: where the kernel selects zero on the diagonal of the pooled adjacency the reference
  multiplies by one minus the identity matrix, and `x · 0 = 0`, `x · 1 = x` hold for every extended real; no step needs the
  inputs to be finite.

  The three frames are the generated ones (the reference's is its generated run with the result dropped); the
  idealization rewrote nothing, so `preserves` is `True`.
-/
import proofs.«127208_g75806172774760_cont_9to1_m_1287_4_alg».proof.Defs
import proofs.«127208_g75806172774760_cont_9to1_m_1287_4_alg».proof.Proof.Gen.Kernel
import proofs.«127208_g75806172774760_cont_9to1_m_1287_4_alg».proof.Proof.Gen.Kernel.Skeleton
import proofs.«127208_g75806172774760_cont_9to1_m_1287_4_alg».proof.Proof.Gen.Kernel.Launch
import proofs.«127208_g75806172774760_cont_9to1_m_1287_4_alg».proof.Proof.Gen.Kernel.Points
import proofs.«127208_g75806172774760_cont_9to1_m_1287_4_alg».proof.Proof.Gen.Kernel.Frame
import proofs.«127208_g75806172774760_cont_9to1_m_1287_4_alg».proof.Proof.Gen.KernelIdeal
import proofs.«127208_g75806172774760_cont_9to1_m_1287_4_alg».proof.Proof.Gen.KernelIdeal.Skeleton
import proofs.«127208_g75806172774760_cont_9to1_m_1287_4_alg».proof.Proof.Gen.KernelIdeal.Launch
import proofs.«127208_g75806172774760_cont_9to1_m_1287_4_alg».proof.Proof.Gen.KernelIdeal.Points
import proofs.«127208_g75806172774760_cont_9to1_m_1287_4_alg».proof.Proof.Gen.KernelIdeal.Frame
import proofs.«127208_g75806172774760_cont_9to1_m_1287_4_alg».proof.Proof.Gen.ReferenceIdeal
import proofs.«127208_g75806172774760_cont_9to1_m_1287_4_alg».proof.Proof.Gen.ReferenceIdeal.Run
import proofs.«127208_g75806172774760_cont_9to1_m_1287_4_alg».proof.Proof.Gen.ReferenceIdeal.Read
import proofs.«127208_g75806172774760_cont_9to1_m_1287_4_alg».proof.Proof.Gen.Pre_finite_inputs
import proofs.«127208_g75806172774760_cont_9to1_m_1287_4_alg».proof.Proof.KernelRun
import proofs.«127208_g75806172774760_cont_9to1_m_1287_4_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with `PoolNet.outputs` of the argument arrays in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v66_eq, a0, a1, a2, a3, a4, a5, a6, a7, a8, a9]
  exact Cert.ReferenceIdeal.RefValue.ref_result _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
